-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3 : Shape := ⟨2, ![16, 3]⟩
abbrev S16x2 : Shape := ⟨2, ![16, 2]⟩
abbrev S2 : Shape := ⟨1, ![2]⟩
abbrev S_ : Shape := ⟨0, ![]⟩

class Facts : Prop where
  bcast_S_S16x3 : S_.BroadcastsInDim S16x3 (![] : Fin 0 → Fin S16x3.rank)
  reducesTo_S16x3_S_d0_1 : S16x3.ReducesTo [0, 1] S_
  h_S_ : 0 < S_.numel
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S16x3 .f32) (main_arg1 : FVec F S16x2 .f32) (main_arg2 : FVec F S16x3 .f32) (main_arg3 : FVec F S2 .f32) (main_arg4 : FVec F S2 .f32) : IVec S_ 1 :=
  let main_v0 : FVec F S16x3 .f32 := Host.absf main_arg0
  let main_cst : FVec F S_ .f32 := constant S_ .f32 0x7F800000#32
  let main_v1 : FVec F S16x3 .f32 := broadcastInDim S16x3 ![] bcast_S_S16x3 main_cst
  let main_v2 : IVec S16x3 1 := cmpf .olt main_v0 main_v1
  let main_c : IVec S_ 1 := constantI S_ 1 1#1
  let main_v3 : IVec S_ 1 := (fun x v => Host.reduce IntOp.andi x v reducesTo_S16x3_S_d0_1 h_S_) main_v2 main_c
  let main_v4 : FVec F S16x2 .f32 := Host.absf main_arg1
  let main_cst_0 : FVec F S_ .f32 := constant S_ .f32 0x7F800000#32
  let main_v5 : FVec F S16x2 .f32 := broadcastInDim S16x2 ![] bcast_S_S16x2 main_cst_0
  let main_v6 : IVec S16x2 1 := cmpf .olt main_v4 main_v5
  let main_c_1 : IVec S_ 1 := constantI S_ 1 1#1
  let main_v7 : IVec S_ 1 := (fun x v => Host.reduce IntOp.andi x v reducesTo_S16x2_S_d0_1 h_S_) main_v6 main_c_1
  let main_v8 : IVec S_ 1 := andi main_v3 main_v7
  let main_v9 : FVec F S16x3 .f32 := Host.absf main_arg2
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_v13 main_v16
-- ==== Kernel.lean ====
abbrev S16x3 : Shape := ⟨2, ![16, 3]⟩
abbrev S16x2 : Shape := ⟨2, ![16, 2]⟩
abbrev S2 : Shape := ⟨1, ![2]⟩
abbrev S15x16 : Shape := ⟨2, ![15, 16]⟩
abbrev S15x1 : Shape := ⟨2, ![15, 1]⟩
abbrev S15x2 : Shape := ⟨2, ![15, 2]⟩
abbrev S2x16 : Shape := ⟨2, ![2, 16]⟩
abbrev S2x1 : Shape := ⟨2, ![2, 1]⟩
abbrev S1x2 : Shape := ⟨2, ![1, 2]⟩
abbrev S1x7 : Shape := ⟨2, ![1, 7]⟩
abbrev S15 : Shape := ⟨1, ![15]⟩
abbrev S2x2 : Shape := ⟨2, ![2, 2]⟩
abbrev S1 : Shape := ⟨1, ![1]⟩
abbrev S1x1 : Shape := ⟨2, ![1, 1]⟩
abbrev S7 : Shape := ⟨1, ![7]⟩

abbrev nBuf : Space → Nat
  | .hbm => 14
  | .vmem => 10
  | .smem => 0
  | _ => 0

abbrev bufTy : (tb : Table) → Fin (tcTables nBuf tb) → BufTy
  | .hbm, ⟨0, _⟩ => ⟨S16x3, .f32⟩
  | .hbm, ⟨1, _⟩ => ⟨S16x2, .f32⟩
  | .hbm, ⟨2, _⟩ => ⟨S16x3, .f32⟩
  | .hbm, ⟨3, _⟩ => ⟨S2, .f32⟩
  | .hbm, ⟨4, _⟩ => ⟨S2, .f32⟩
  | .hbm, ⟨5, _⟩ => ⟨S15x16, .f32⟩
  | .hbm, ⟨6, _⟩ => ⟨S15x1, .f32⟩
  | .hbm, ⟨7, _⟩ => ⟨S15x2, .f32⟩
  | .hbm, ⟨8, _⟩ => ⟨S2x16, .f32⟩
  | .hbm, ⟨9, _⟩ => ⟨S2x1, .f32⟩
  | .hbm, ⟨10, _⟩ => ⟨S1x2, .f32⟩
  | .hbm, ⟨11, _⟩ => ⟨S1x2, .f32⟩
  | .hbm, ⟨12, _⟩ => ⟨S1x7, .f32⟩
  | .hbm, ⟨13, _⟩ => ⟨S7, .f32⟩
  | .local _ .vmem, ⟨0, _⟩ => ⟨S16x3, .f32⟩
  | .local _ .vmem, ⟨1, _⟩ => ⟨S16x2, .f32⟩
  | .local _ .vmem, ⟨2, _⟩ => ⟨S1x2, .f32⟩
  | .local _ .vmem, ⟨3, _⟩ => ⟨S1x2, .f32⟩
  | .local _ .vmem, ⟨4, _⟩ => ⟨S15x16, .f32⟩
  | .local _ .vmem, ⟨5, _⟩ => ⟨S15x1, .f32⟩
  | .local _ .vmem, ⟨6, _⟩ => ⟨S15x2, .f32⟩
  | .local _ .vmem, ⟨7, _⟩ => ⟨S2x16, .f32⟩
  | .local _ .vmem, ⟨8, _⟩ => ⟨S2x1, .f32⟩
  | .local _ .vmem, ⟨9, _⟩ => ⟨S1x7, .f32⟩
  | _, _ => ⟨S16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x7 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  shapeCasts_S2_S1x2 : S2.ShapeCasts S1x2
  inb_S16x3_S16x3_0_0 : ∀ a, (![0, 0] : Fin 2 → Nat) a + S16x3.size a ≤ S16x3.size a
  h_S16x3 : 0 < S16x3.numel
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S15x16_S15x16_0_0 : ∀ a, (![0, 0] : Fin 2 → Nat) a + S15x16.size a ≤ S15x16.size a
  h_S15x16 : 0 < S15x16.numel
  inb_S15x1_S15x1_0_0 : ∀ a, (![0, 0] : Fin 2 → Nat) a + S15x1.size a ≤ S15x1.size a
  h_S15x1 : 0 < S15x1.numel
  inb_S15x2_S15x2_0_0 : ∀ a, (![0, 0] : Fin 2 → Nat) a + S15x2.size a ≤ S15x2.size a
  h_S15x2 : 0 < S15x2.numel
  inb_S2x16_S2x16_0_0 : ∀ a, (![0, 0] : Fin 2 → Nat) a + S2x16.size a ≤ S2x16.size a
  h_S2x16 : 0 < S2x16.numel
  inb_S2x1_S2x1_0_0 : ∀ a, (![0, 0] : Fin 2 → Nat) a + S2x1.size a ≤ S2x1.size a
  h_S2x1 : 0 < S2x1.numel
  slices_S16x3_o0_0_S16x2 : S16x3.Slices ![0, 0] S16x2
  reduces_S15x2_S15 : S15x2.Reduces [1] S15
  shapeCasts_S15_S15x1 : S15.ShapeCasts S15x1
  broadcasts_S15x1_S15x2 : S15x1.Broadcasts S15x2
  slices_S15x2_o0_1_S15x1 : S15x2.Slices ![0, 1] S15x1
  slices_S15x2_o0_0_S15x1 : S15x2.Slices ![0, 0] S15x1
  concatenates_S15x1_S15x1_S15x2_d1 : Shape.Concatenates [S15x1, S15x1] S15x2 1
  concatenates_S1x2_S1x2_S2x2_d0 : Shape.Concatenates [S1x2, S1x2] S2x2 0
  reduces_S15x1_S1 : S15x1.Reduces [0] S1
  shapeCasts_S1_S1x1 : S1.ShapeCasts S1x1
  reduces_S2x2_S2 : S2x2.Reduces [1] S2
  shapeCasts_S2_S2x1 : S2.ShapeCasts S2x1
  broadcasts_S2x1_S2x2 : S2x1.Broadcasts S2x2
  slices_S2x2_o0_0_S2x1 : S2x2.Slices ![0, 0] S2x1
  reduces_S2x1_S1 : S2x1.Reduces [0] S1
  concatenates_S1x1_S1x1_S1x1_S1x1_S1x1_S1x1_S1x1_S1x7_d1 : Shape.Concatenates [S1x1, S1x1, S1x1, S1x1, S1x1, S1x1, S1x1] S1x7 1
  inb_S1x7_S1x7_0_0 : ∀ a, (![0, 0] : Fin 2 → Nat) a + S1x7.size a ≤ S1x7.size a
  h_S1x7 : 0 < S1x7.numel
  shapeCasts_S1x7_S7 : S1x7.ShapeCasts S7
  dot_S15x16_S16x2_S15x2_1_0_0_1_n_n_wf : DotDims.WF S15x16 S16x2 S15x2 [1] [0] [0] [1] [] []
  dot_S15x2_S2x2_S15x2_1_0_0_1_n_n_wf : DotDims.WF S15x2 S2x2 S15x2 [1] [0] [0] [1] [] []
  dot_S2x16_S16x2_S2x2_1_0_0_1_n_n_wf : DotDims.WF S2x16 S16x2 S2x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x3.size a ≤ S16x3.size a
  hwx0_0 : ∀ i : grid0.Coords, EltTy.bits .f32 = 32 ∨ (Rect.block (s := S16x3) S16x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S16x2.size a
  hwx0_1 : ∀ i : grid0.Coords, EltTy.bits .f32 = 32 ∨ (Rect.block (s := S16x2) S16x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S15x16.size a ≤ S15x16.size a
  hwx0_4 : ∀ i : grid0.Coords, EltTy.bits .f32 = 32 ∨ (Rect.block (s := S15x16) S15x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x1.size a ≤ S15x1.size a
  hwx0_5 : ∀ i : grid0.Coords, EltTy.bits .f32 = 32 ∨ (Rect.block (s := S15x1) S15x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x2.size a ≤ S15x2.size a
  hwx0_6 : ∀ i : grid0.Coords, EltTy.bits .f32 = 32 ∨ (Rect.block (s := S15x2) S15x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x16.size a ≤ S2x16.size a
  hwx0_7 : ∀ i : grid0.Coords, EltTy.bits .f32 = 32 ∨ (Rect.block (s := S2x16) S2x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1.size a ≤ S2x1.size a
  hwx0_8 : ∀ i : grid0.Coords, EltTy.bits .f32 = 32 ∨ (Rect.block (s := S2x1) S2x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x7.size a ≤ S1x7.size a
  hwx0_9 : ∀ i : grid0.Coords, EltTy.bits .f32 = 32 ∨ (Rect.block (s := S1x7) S1x7.size (cc0_transform_9 i) (hinb0_9 i)).WholeWords (EltTy.packing .f32)

variable [Facts₀]

def dot_S15x16_S16x2_S15x2_1_0_0_1_n_n : DotDims S15x16 S16x2 S15x2 where
  lhsContracting := [1]
  rhsContracting := [0]
  lhsNonContracting := [0]
  rhsNonContracting := [1]
  lhsBatch := []
  rhsBatch := []
  wf := dot_S15x16_S16x2_S15x2_1_0_0_1_n_n_wf
def dot_S15x2_S2x2_S15x2_1_0_0_1_n_n : DotDims S15x2 S2x2 S15x2 where
  lhsContracting := [1]
  rhsContracting := [0]
  lhsNonContracting := [0]
  rhsNonContracting := [1]
  lhsBatch := []
  rhsBatch := []
  wf := dot_S15x2_S2x2_S15x2_1_0_0_1_n_n_wf
def dot_S2x16_S16x2_S2x2_1_0_0_1_n_n : DotDims S2x16 S16x2 S2x2 where
  lhsContracting := [1]
  rhsContracting := [0]
  lhsNonContracting := [0]
  rhsNonContracting := [1]
  lhsBatch := []
  rhsBatch := []
  wf := dot_S2x16_S16x2_S2x2_1_0_0_1_n_n_wf

abbrev win0_0 : Pipeline.Window sig grid0 :=
  Pipeline.Window.ofSpec (Memref.whole main_arg0) S16x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S15x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst_0) S15x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst_1) S15x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst_2) S2x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst_3) S2x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x7.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x3 : Shape := ⟨2, ![16, 3]⟩
abbrev S16x2 : Shape := ⟨2, ![16, 2]⟩
abbrev S2 : Shape := ⟨1, ![2]⟩
abbrev S15 : Shape := ⟨1, ![15]⟩
abbrev S_ : Shape := ⟨0, ![]⟩
abbrev S15x1 : Shape := ⟨2, ![15, 1]⟩
abbrev S15x2 : Shape := ⟨2, ![15, 2]⟩
abbrev S1 : Shape := ⟨1, ![1]⟩
abbrev S2x1 : Shape := ⟨2, ![2, 1]⟩
abbrev S2x2 : Shape := ⟨2, ![2, 2]⟩
abbrev S7 : Shape := ⟨1, ![7]⟩

abbrev nBuf : Space → Nat
  | .hbm => 128
  | .vmem => 0
  | .smem => 0
  | _ => 0

abbrev bufTy : (tb : Table) → Fin (tcTables nBuf tb) → BufTy
  | .hbm, ⟨0, _⟩ => ⟨S16x3, .f32⟩
  | .hbm, ⟨1, _⟩ => ⟨S16x2, .f32⟩
  | .hbm, ⟨2, _⟩ => ⟨S16x3, .f32⟩
  | .hbm, ⟨3, _⟩ => ⟨S2, .f32⟩
  | .hbm, ⟨4, _⟩ => ⟨S2, .f32⟩
  | .hbm, ⟨5, _⟩ => ⟨S15, .i32⟩
  | .hbm, ⟨6, _⟩ => ⟨S15, .i1⟩
  | .hbm, ⟨7, _⟩ => ⟨S15, .i32⟩
  | .hbm, ⟨8, _⟩ => ⟨S15, .i1⟩
  | .hbm, ⟨9, _⟩ => ⟨S15, .i1⟩
  | .hbm, ⟨10, _⟩ => ⟨S15, .i1⟩
  | .hbm, ⟨11, _⟩ => ⟨S2, .i32⟩
  | .hbm, ⟨12, _⟩ => ⟨S2, .i1⟩
  | .hbm, ⟨13, _⟩ => ⟨S2, .i32⟩
  | .hbm, ⟨14, _⟩ => ⟨S2, .i1⟩
  | .hbm, ⟨15, _⟩ => ⟨S2, .f32⟩
  | .hbm, ⟨16, _⟩ => ⟨S16x2, .f32⟩
  | .hbm, ⟨17, _⟩ => ⟨S_, .i32⟩
  | .hbm, ⟨18, _⟩ => ⟨S15, .i32⟩
  | .hbm, ⟨19, _⟩ => ⟨S15, .i32⟩
  | .hbm, ⟨20, _⟩ => ⟨S15, .i32⟩
  | .hbm, ⟨21, _⟩ => ⟨S15x1, .i32⟩
  | .hbm, ⟨22, _⟩ => ⟨S15x2, .f32⟩
  | .hbm, ⟨23, _⟩ => ⟨S_, .i32⟩
  | .hbm, ⟨24, _⟩ => ⟨S15, .i32⟩
  | .hbm, ⟨25, _⟩ => ⟨S15, .i32⟩
  | .hbm, ⟨26, _⟩ => ⟨S15, .i32⟩
  | .hbm, ⟨27, _⟩ => ⟨S15x1, .i32⟩
  | .hbm, ⟨28, _⟩ => ⟨S15x2, .f32⟩
  | .hbm, ⟨29, _⟩ => ⟨S15x2, .f32⟩
  | .hbm, ⟨30, _⟩ => ⟨S15x2, .f32⟩
  | .hbm, ⟨31, _⟩ => ⟨S_, .f32⟩
  | .hbm, ⟨32, _⟩ => ⟨S15, .f32⟩
  | .hbm, ⟨33, _⟩ => ⟨S15x1, .f32⟩
  | .hbm, ⟨34, _⟩ => ⟨S15x1, .f32⟩
  | .hbm, ⟨35, _⟩ => ⟨S_, .f32⟩
  | .hbm, ⟨36, _⟩ => ⟨S15x1, .f32⟩
  | .hbm, ⟨37, _⟩ => ⟨S15x1, .f32⟩
  | .hbm, ⟨38, _⟩ => ⟨S15x2, .f32⟩
  | .hbm, ⟨39, _⟩ => ⟨S15x2, .f32⟩
  | .hbm, ⟨40, _⟩ => ⟨S15x1, .f32⟩
  | .hbm, ⟨41, _⟩ => ⟨S15, .f32⟩
  | .hbm, ⟨42, _⟩ => ⟨S15, .f32⟩
  | .hbm, ⟨43, _⟩ => ⟨S15x1, .f32⟩
  | .hbm, ⟨44, _⟩ => ⟨S15, .f32⟩
  | .hbm, ⟨45, _⟩ => ⟨S15x1, .f32⟩
  | .hbm, ⟨46, _⟩ => ⟨S15x1, .f32⟩
  | .hbm, ⟨47, _⟩ => ⟨S15x2, .f32⟩
  | .hbm, ⟨48, _⟩ => ⟨S_, .i32⟩
  | .hbm, ⟨49, _⟩ => ⟨S15, .i32⟩
  | .hbm, ⟨50, _⟩ => ⟨S15, .i32⟩
  | .hbm, ⟨51, _⟩ => ⟨S15, .i32⟩
  | .hbm, ⟨52, _⟩ => ⟨S15x1, .i32⟩
  | .hbm, ⟨53, _⟩ => ⟨S15x2, .f32⟩
  | .hbm, ⟨54, _⟩ => ⟨S_, .i32⟩
  | .hbm, ⟨55, _⟩ => ⟨S15, .i32⟩
  | .hbm, ⟨56, _⟩ => ⟨S15, .i32⟩
  | .hbm, ⟨57, _⟩ => ⟨S15, .i32⟩
  | .hbm, ⟨58, _⟩ => ⟨S15x1, .i32⟩
  | .hbm, ⟨59, _⟩ => ⟨S15x2, .f32⟩
  | .hbm, ⟨60, _⟩ => ⟨S15x2, .f32⟩
  | .hbm, ⟨61, _⟩ => ⟨S_, .i32⟩
  | .hbm, ⟨62, _⟩ => ⟨S1, .i32⟩
  | .hbm, ⟨63, _⟩ => ⟨S15x2, .f32⟩
  | .hbm, ⟨64, _⟩ => ⟨S_, .i32⟩
  | .hbm, ⟨65, _⟩ => ⟨S1, .i32⟩
  | .hbm, ⟨66, _⟩ => ⟨S15x2, .f32⟩
  | .hbm, ⟨67, _⟩ => ⟨S15x2, .f32⟩
  | .hbm, ⟨68, _⟩ => ⟨S15x2, .f32⟩
  | .hbm, ⟨69, _⟩ => ⟨S_, .f32⟩
  | .hbm, ⟨70, _⟩ => ⟨S15, .f32⟩
  | .hbm, ⟨71, _⟩ => ⟨S15, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S15x2, .f32⟩
  | .hbm, ⟨77, _⟩ => ⟨S_, .f32⟩
  | .hbm, ⟨78, _⟩ => ⟨S15, .f32⟩
  | .hbm, ⟨79, _⟩ => ⟨S15, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S2, .i32⟩
  | .hbm, ⟨86, _⟩ => ⟨S2, .i32⟩
  | .hbm, ⟨87, _⟩ => ⟨S2, .i32⟩
  | .hbm, ⟨88, _⟩ => ⟨S2x1, .i32⟩
  | .hbm, ⟨89, _⟩ => ⟨S2x2, .f32⟩
  | .hbm, ⟨90, _⟩ => ⟨S_, .i32⟩
  | .hbm, ⟨91, _⟩ => ⟨S2, .i32⟩
  | .hbm, ⟨92, _⟩ => ⟨S2, .i32⟩
  | .hbm, ⟨93, _⟩ => ⟨S2, .i32⟩
  | .hbm, ⟨94, _⟩ => ⟨S2x1, .i32⟩
  | .hbm, ⟨95, _⟩ => ⟨S2x2, .f32⟩
  | .hbm, ⟨96, _⟩ => ⟨S2x2, .f32⟩
  | .hbm, ⟨97, _⟩ => ⟨S2x2, .f32⟩
  | .hbm, ⟨98, _⟩ => ⟨S_, .f32⟩
  | .hbm, ⟨99, _⟩ => ⟨S2, .f32⟩
  | .hbm, ⟨100, _⟩ => ⟨S2x1, .f32⟩
  | .hbm, ⟨101, _⟩ => ⟨S2x1, .f32⟩
  | .hbm, ⟨102, _⟩ => ⟨S_, .f32⟩
  | .hbm, ⟨103, _⟩ => ⟨S2x1, .f32⟩
  | .hbm, ⟨104, _⟩ => ⟨S2x1, .f32⟩
  | .hbm, ⟨105, _⟩ => ⟨S2x2, .f32⟩
  | .hbm, ⟨106, _⟩ => ⟨S2x2, .f32⟩
  | .hbm, ⟨107, _⟩ => ⟨S2x1, .f32⟩
  | .hbm, ⟨108, _⟩ => ⟨S2, .f32⟩
  | .hbm, ⟨109, _⟩ => ⟨S2, .f32⟩
  | .hbm, ⟨110, _⟩ => ⟨S2, .f32⟩
  | .hbm, ⟨111, _⟩ => ⟨S2, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S1, .f32⟩
  | .hbm, ⟨121, _⟩ => ⟨S1, .f32⟩
  | .hbm, ⟨122, _⟩ => ⟨S1, .f32⟩
  | .hbm, ⟨123, _⟩ => ⟨S1, .f32⟩
  | .hbm, ⟨124, _⟩ => ⟨S1, .f32⟩
  | .hbm, ⟨125, _⟩ => ⟨S1, .f32⟩
  | .hbm, ⟨126, _⟩ => ⟨S1, .f32⟩
  | .hbm, ⟨127, _⟩ => ⟨S7, .f32⟩
  | _, _ => ⟨S16x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_cst : Ref sig .tc := ⟨.hbm, 15, rfl⟩
abbrev main_v0 : Ref sig .tc := ⟨.hbm, 16, rfl⟩
abbrev main_c_9 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_10 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v12 : Ref sig .tc := ⟨.hbm, 34, rfl⟩
abbrev main_cst_11 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_12 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_13 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_14 : Ref sig .tc := ⟨.hbm, 61, rfl⟩
abbrev main_v36 : Ref sig .tc := ⟨.hbm, 62, rfl⟩
abbrev main_v37 : Ref sig .tc := ⟨.hbm, 63, rfl⟩
abbrev main_c_15 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_16 : Ref sig .tc := ⟨.hbm, 69, rfl⟩
abbrev main_v42 : Ref sig .tc := ⟨.hbm, 70, rfl⟩
abbrev main_v43 : Ref sig .tc := ⟨.hbm, 71, rfl⟩
abbrev main_cst_17 : Ref sig .tc := ⟨.hbm, 72, rfl⟩
abbrev main_v44 : Ref sig .tc := ⟨.hbm, 73, rfl⟩
abbrev main_cst_18 : Ref sig .tc := ⟨.hbm, 74, rfl⟩
abbrev main_v45 : Ref sig .tc := ⟨.hbm, 75, rfl⟩
abbrev main_v46 : Ref sig .tc := ⟨.hbm, 76, rfl⟩
abbrev main_cst_19 : Ref sig .tc := ⟨.hbm, 77, rfl⟩
abbrev main_v47 : Ref sig .tc := ⟨.hbm, 78, rfl⟩
abbrev main_v48 : Ref sig .tc := ⟨.hbm, 79, rfl⟩
abbrev main_cst_20 : Ref sig .tc := ⟨.hbm, 80, rfl⟩
abbrev main_v49 : Ref sig .tc := ⟨.hbm, 81, rfl⟩
abbrev main_cst_21 : Ref sig .tc := ⟨.hbm, 82, rfl⟩
abbrev main_v50 : Ref sig .tc := ⟨.hbm, 83, rfl⟩
abbrev main_c_22 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_23 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call1_v0 : Ref sig .tc := ⟨.hbm, 97, rfl⟩
abbrev main_call1_cst : Ref sig .tc := ⟨.hbm, 98, rfl⟩
abbrev main_call1_v1 : Ref sig .tc := ⟨.hbm, 99, rfl⟩
abbrev main_call1_v2 : Ref sig .tc := ⟨.hbm, 100, rfl⟩
abbrev main_v62 : Ref sig .tc := ⟨.hbm, 101, rfl⟩
abbrev main_cst_24 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_25 : Ref sig .tc := ⟨.hbm, 112, rfl⟩
abbrev main_v72 : Ref sig .tc := ⟨.hbm, 113, rfl⟩
abbrev main_cst_26 : Ref sig .tc := ⟨.hbm, 114, rfl⟩
abbrev main_v73 : Ref sig .tc := ⟨.hbm, 115, rfl⟩
abbrev main_cst_27 : Ref sig .tc := ⟨.hbm, 116, rfl⟩
abbrev main_cst_28 : Ref sig .tc := ⟨.hbm, 117, rfl⟩
abbrev main_cst_29 : Ref sig .tc := ⟨.hbm, 118, rfl⟩
abbrev main_cst_30 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩

abbrev nD : Nat := 1
abbrev τ : Topo := Topo.v7x

variable {F : FTy → Type} [FloatOps F]

class Facts₀ : Prop where
  slices_S16x3_S16x2_0_0 : S16x3.Slices ![0, 0] S16x2
  bcast_S_S15 : S_.BroadcastsInDim S15 (![] : Fin 0 → Fin S15.rank)
  bcast_S15_S15x1_0 : S15.BroadcastsInDim S15x1 (![0] : Fin 1 → Fin S15x1.rank)
  reducesTo_S15x2_S15_d1 : S15x2.ReducesTo [1] S15
  h_S_ : 0 < S_.numel
  bcast_S_S15x1 : S_.BroadcastsInDim S15x1 (![] : Fin 0 → Fin S15x1.rank)
  bcast_S15x1_S15x2_0_1 : S15x1.BroadcastsInDim S15x2 (![0, 1] : Fin 2 → Fin S15x2.rank)
  slices_S15x2_S15x1_0_1 : S15x2.Slices ![0, 1] S15x1
  shapeCasts_S15x1_S15 : S15x1.ShapeCasts S15
  slices_S15x2_S15x1_0_0 : S15x2.Slices ![0, 0] S15x1
  concatenates_S15x1_S15x1_S15x2_d1 : Shape.Concatenates [S15x1, S15x1] S15x2 1
  bcast_S_S1 : S_.BroadcastsInDim S1 (![] : Fin 0 → Fin S1.rank)
  reducesTo_S15_S_d0 : S15.ReducesTo [0] S_
  bcast_S_S2 : S_.BroadcastsInDim S2 (![] : Fin 0 → Fin S2.rank)
  bcast_S2_S2x1_0 : S2.BroadcastsInDim S2x1 (![0] : Fin 1 → Fin S2x1.rank)
  reducesTo_S2x2_S2_d1 : S2x2.ReducesTo [1] S2
  bcast_S_S2x1 : S_.BroadcastsInDim S2x1 (![] : Fin 0 → Fin S2x1.rank)
  bcast_S2x1_S2x2_0_1 : S2x1.BroadcastsInDim S2x2 (![0, 1] : Fin 2 → Fin S2x2.rank)
  slices_S2x2_S2x1_0_0 : S2x2.Slices ![0, 0] S2x1
  shapeCasts_S2x1_S2 : S2x1.ShapeCasts S2
  reducesTo_S2_S_d0 : S2.ReducesTo [0] S_
  concatenates_S1_S1_S1_S1_S1_S1_S1_S7_d0 : Shape.Concatenates [S1, S1, S1, S1, S1, S1, S1] S7 0
  gather_S16x2_S15x1_S15x2_1_0_n_n_0_1_12_wf : GatherDims.WF S16x2 S15x1 S15x2 [1] [0] [] [0] [] 1 ![1, 2]
  scatter_S15x2_S1_S2_0_0_0_0_wf : ScatterDims.WF S15x2 S1 S2 [0] [0] [0] 0
  gather_S16x2_S2x1_S2x2_1_0_n_n_0_1_12_wf : GatherDims.WF S16x2 S2x1 S2x2 [1] [0] [] [0] [] 1 ![1, 2]

variable [Facts₀]

def gather_S16x2_S15x1_S15x2_1_0_n_n_0_1_12 : GatherDims S16x2 S15x1 S15x2 where
  offsetDims := [1]
  collapsedSliceDims := [0]
  operandBatchingDims := []
  startIndicesBatchingDims := []
  startIndexMap := [0]
  indexVectorDim := 1
  sliceSizes := ![1, 2]
  wf := gather_S16x2_S15x1_S15x2_1_0_n_n_0_1_12_wf
def scatter_S15x2_S1_S2_0_0_0_0 : ScatterDims S15x2 S1 S2 where
  updateWindowDims := [0]
  insertedWindowDims := [0]
  scatterDimsToOperandDims := [0]
  indexVectorDim := 0
  wf := scatter_S15x2_S1_S2_0_0_0_0_wf
def gather_S16x2_S2x1_S2x2_1_0_n_n_0_1_12 : GatherDims S16x2 S2x1 S2x2 where
  offsetDims := [1]
  collapsedSliceDims := [0]
  operandBatchingDims := []
  startIndicesBatchingDims := []
  startIndexMap := [0]
  indexVectorDim := 1
  sliceSizes := ![1, 2]
  wf := gather_S16x2_S2x1_S2x2_1_0_n_n_0_1_12_wf

class Facts : Prop extends Facts₀ where

variable [Facts]
-- ==== Proof.Spec.lean ====
/-
  The skeleton loss both programs compute, as one function of the argument arrays on the extended reals.

  Sixteen joints carry fifteen bones; bone i runs from joint srcJ i to joint dstJ i.  From the data joints yd the
  data bone is b i = yd (dstJ i) - yd (srcJ i), its length is max (sqrt (b·b)) eps, its unit tangent t i = b i / length,
  its normal n i = (-(t i) 1, (t i) 0).  From the predicted joints yp the predicted bone is
  a i = yp (dstJ i) - yp (srcJ i), except that bones 9 and 12 are the given right and left leg vectors.  With the
  residual c i = a i - b i, the tangent loss is the mean over the fifteen bones of (c i · t i)², the parallel loss the
  mean of (c i · n i)².  Two ground bones (joints 11→12 and 14→15 of the predicted joints) are normalised the same
  way, and the ground loss is the mean over the two of (|first coordinate| - 1)².  The result is the vector
  (tangent loss, 0, parallel loss, 0, ground loss, 0, 0).
-/
import Idealize.ShloMosaic.PureOps.Ideal.Laws
import Idealize.ShloMosaic.Lib.ValueIdx

noncomputable section

open scoped BigOperators

namespace Cert.BoneLoss

open Idealize.ShloMosaic Idealize.ShloMosaic.ValueIdx

/-- The joint a bone ends at. -/
def dstJ : Fin 15 → Fin 16 := ![2, 5, 3, 4, 6, 7, 8, 9, 10, 11, 12, 13, 14, 15, 1]
/-- The joint a bone starts from. -/
def srcJ : Fin 15 → Fin 16 := ![1, 1, 2, 3, 5, 6, 1, 8, 9, 10, 11, 9, 13, 14, 0]
/-- The joints the two ground bones end at and start from. -/
def gdstJ : Fin 2 → Fin 16 := ![12, 15]
def gsrcJ : Fin 2 → Fin 16 := ![11, 14]

/-- Sixteen joints in the plane. -/
abbrev Joints : Type := (⟨2, ![16, 2]⟩ : Shape).Idx → EReal

/-- The floor under a length (the f32 nearest 1e-12), and the numbers 15, 2, 1 as the programs spell them. -/
def epsW : EReal := Ideal.ofBits .f32 0x2B8CBCCC#32
def fifteenW : EReal := Ideal.ofBits .f32 0x41700000#32
def twoW : EReal := Ideal.ofBits .f32 0x40000000#32
def oneW : EReal := Ideal.ofBits .f32 0x3F800000#32

/-- The vector from joint s to joint d. -/
def bone (y : Joints) (d s : Fin 16) (k : Fin 2) : EReal := y (ix2 d k) - y (ix2 s k)

/-- The floored length of a plane vector. -/
def len (v : Fin 2 → EReal) : EReal := max (Ideal.sqrt (∑ k : Fin 2, v k * v k)) epsW

/-- The vector divided by its floored length. -/
def dir (v : Fin 2 → EReal) (k : Fin 2) : EReal := Ideal.div (v k) (len v)

/-- The vector turned a quarter: (x, y) ↦ (-y, x). -/
def perp (v : Fin 2 → EReal) (k : Fin 2) : EReal := if k = 0 then -(v 1) else v 0

/-- The inner product of two plane vectors. -/
def dot (u v : Fin 2 → EReal) : EReal := ∑ k : Fin 2, u k * v k

/-- Data bone i. -/
def dataBone (yd : Joints) (i : Fin 15) : Fin 2 → EReal := bone yd (dstJ i) (srcJ i)

/-- Predicted bone i: bones 9 and 12 are the given leg vectors. -/
def predBone (yp : Joints) (rl ll : Fin 2 → EReal) (i : Fin 15) (k : Fin 2) : EReal :=
  if i = 9 then rl k else if i = 12 then ll k else bone yp (dstJ i) (srcJ i) k

/-- The residual of bone i. -/
def resid (yd yp : Joints) (rl ll : Fin 2 → EReal) (i : Fin 15) (k : Fin 2) : EReal :=
  predBone yp rl ll i k - dataBone yd i k

/-- The residual of bone i along the data bone, and across it. -/
def tanTerm (yd yp : Joints) (rl ll : Fin 2 → EReal) (i : Fin 15) : EReal :=
  dot (resid yd yp rl ll i) (dir (dataBone yd i))
def parTerm (yd yp : Joints) (rl ll : Fin 2 → EReal) (i : Fin 15) : EReal :=
  dot (resid yd yp rl ll i) (perp (dir (dataBone yd i)))

/-- The two bone losses: means of squares over the fifteen bones. -/
def tanLoss (yd yp : Joints) (rl ll : Fin 2 → EReal) : EReal :=
  Ideal.div (∑ i : Fin 15, tanTerm yd yp rl ll i * tanTerm yd yp rl ll i) fifteenW
def parLoss (yd yp : Joints) (rl ll : Fin 2 → EReal) : EReal :=
  Ideal.div (∑ i : Fin 15, parTerm yd yp rl ll i * parTerm yd yp rl ll i) fifteenW

/-- Ground bone j of the predicted joints. -/
def groundBone (yp : Joints) (j : Fin 2) : Fin 2 → EReal := bone yp (gdstJ j) (gsrcJ j)

/-- How far the first coordinate of the unit ground bone j is, in absolute value, from 1. -/
def groundTerm (yp : Joints) (j : Fin 2) : EReal :=
  max (dir (groundBone yp j) 0) (-(dir (groundBone yp j) 0)) - oneW

/-- The ground loss: the mean of squares over the two ground bones. -/
def groundLoss (yp : Joints) : EReal :=
  Ideal.div (∑ j : Fin 2, groundTerm yp j * groundTerm yp j) twoW

/-- The seven numbers of the result, by position. -/
def loss (yd yp : Joints) (rl ll : Fin 2 → EReal) (q : Fin 7) : EReal :=
  if q = 0 then tanLoss yd yp rl ll else if q = 2 then parLoss yd yp rl ll else if q = 4 then groundLoss yp else 0

/-- The result as a vector of seven. -/
def lossVec (yd yp : Joints) (rl ll : Fin 2 → EReal) : (⟨1, ![7]⟩ : Shape).Idx → EReal :=
  fun q => loss yd yp rl ll (q 0)

/-- The first two columns of a [16, 3] array of joints. -/
def firstTwo (y3 : (⟨2, ![16, 3]⟩ : Shape).Idx → EReal) : Joints :=
  extractStridedSlice ⟨2, ![16, 2]⟩ ![0, 0] y3 (by decide)

/-- A vector of two read as a plane vector. -/
def pair (v : (⟨1, ![2]⟩ : Shape).Idx → EReal) (k : Fin 2) : EReal := v (ix1 k)

end Cert.BoneLoss

end
-- ==== Proof.KVTables.lean ====
/-
  The four constant tables of the skeleton loss, read by coordinates, and the three f32 words they are written with.

  The difference selector has, in the row of bone i, the word of +1 in the column of the joint the bone ends at, the
  word of -1 in the column of the joint it starts from and the zero word elsewhere; the ground selector is the same
  for the two ground bones. The keep mask is the zero word in rows 9 and 12 and the word of 1 elsewhere; the override
  table has the word of 1 at (9, 0) and (12, 1) and the zero word elsewhere. The words 0x3F800000 and 0xBF800000 are
  the numbers 1 and -1.
-/
import proofs.«123490_j45664092291588_2_alg».proof.Proof.Gen.KernelIdeal.Skeleton
import proofs.«123490_j45664092291588_2_alg».proof.Proof.Spec

noncomputable section

namespace Cert.KernelIdeal.KValue

open Idealize.ShloMosaic Idealize.ShloMosaic.ValueIdx Cert.BoneLoss

/-- The difference selector by coordinates. -/
theorem lit0_eq : ∀ (i : Fin 15) (j : Fin 16), lit0 (S15x16.rowMajor (ix2 i j))
    = if j = dstJ i then 0x3F800000#32 else if j = srcJ i then 0xBF800000#32 else 0x00000000#32 := by
  decide +kernel

/-- The keep mask by rows. -/
theorem lit1_eq : ∀ i : Fin 15, lit1 (S15x1.rowMajor (ix2 i (0 : Fin 1)))
    = if i = 9 then 0x00000000#32 else if i = 12 then 0x00000000#32 else 0x3F800000#32 := by
  decide +kernel

/-- The override table by coordinates. -/
theorem lit2_eq : ∀ (i : Fin 15) (r : Fin 2), lit2 (S15x2.rowMajor (ix2 i r))
    = if (i = 9 ∧ r = 0) ∨ (i = 12 ∧ r = 1) then 0x3F800000#32 else 0x00000000#32 := by
  decide +kernel

/-- The ground selector by coordinates. -/
theorem lit3_eq : ∀ (j : Fin 2) (k : Fin 16), lit3 (S2x16.rowMajor (ix2 j k))
    = if k = gdstJ j then 0x3F800000#32 else if k = gsrcJ j then 0xBF800000#32 else 0x00000000#32 := by
  decide +kernel

/-- A bone never starts where it ends. -/
theorem dst_ne_src : ∀ i : Fin 15, dstJ i ≠ srcJ i := by decide
theorem gdst_ne_gsrc : ∀ j : Fin 2, gdstJ j ≠ gsrcJ j := by decide

/-- The f32 word 0x3F800000 is the number one. -/
theorem ofBits_one : Ideal.ofBits .f32 0x3F800000#32 = 1 := by
  simp [Ideal.ofBits, Ideal.ieee, -EReal.coe_mul]; norm_num

/-- The f32 word 0xBF800000 is minus one. -/
theorem ofBits_neg_one : Ideal.ofBits .f32 0xBF800000#32 = -1 := by
  simp [Ideal.ofBits, Ideal.ieee, -EReal.coe_mul]; norm_num

end Cert.KernelIdeal.KValue

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«123490_j45664092291588_2_alg».proof.Proof.LibContract
import proofs.«123490_j45664092291588_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.KVSelect.lean ====
/-
  A row of a difference selector against a column, and the three matrix products of the skeleton loss as plain sums.

  If a row of weights is 1 at position d, -1 at another position s and 0 elsewhere, its inner product with a column y is
  y d - y s: on the extended reals 0 · x = 0, 1 · x = x and (-1) · x = -x whatever x is, so no finiteness is needed.
  If it is 1 at one position and 0 elsewhere the inner product is the entry at that position. The three dimension
  records of the loss contract the left operand's second axis with the right operand's first.
-/
import proofs.«123490_j45664092291588_2_alg».proof.Proof.KVTables
import proofs.«123490_j45664092291588_2_alg».proof.Proof.LibDenseVec

noncomputable section

open scoped BigOperators

namespace Cert.KernelIdeal.KValue

open Idealize.ShloMosaic Idealize.ShloMosaic.ValueIdx Cert.BoneLoss

/-- A row that is 1 at d, -1 at s and 0 elsewhere, against a column: the difference of the two entries. -/
theorem sum_selector {n : ℕ} (w y : Fin n → EReal) (d s : Fin n) (hds : d ≠ s)
    (hw : ∀ j, w j = if j = d then 1 else if j = s then -1 else 0) :
    ∑ j : Fin n, w j * y j = y d - y s := by
  rw [Finset.sum_eq_add d s hds]
  · rw [hw d, hw s, if_pos rfl, if_neg hds.symm, if_pos rfl, one_mul, neg_mul, one_mul, sub_eq_add_neg]
  · intro c _ hc
    rw [hw c, if_neg hc.1, if_neg hc.2, zero_mul]
  · intro h; exact absurd (Finset.mem_univ _) h
  · intro h; exact absurd (Finset.mem_univ _) h

/-- A row that is 1 at d and 0 elsewhere, against a column: the entry at d. -/
theorem sum_onehot {n : ℕ} (w y : Fin n → EReal) (d : Fin n)
    (hw : ∀ j, w j = if j = d then 1 else 0) :
    ∑ j : Fin n, w j * y j = y d := by
  rw [Finset.sum_eq_single d]
  · rw [hw d, if_pos rfl, one_mul]
  · intro c _ hc
    rw [hw c, if_neg hc, zero_mul]
  · intro h; exact absurd (Finset.mem_univ _) h

/-- A row of zeros against a column is zero. -/
theorem sum_zero_row {n : ℕ} (w y : Fin n → EReal) (hw : ∀ j, w j = 0) : ∑ j : Fin n, w j * y j = 0 :=
  Finset.sum_eq_zero fun j _ => by rw [hw j, zero_mul]

/-- The three products contract the left operand's columns with the right operand's rows. -/
theorem plain_15_16_2 : DenseVec.Plain dot_S15x16_S16x2_S15x2_1_0_0_1_n_n where
  rank := rfl
  size := fun _ => rfl
  lhs := rfl
  rhs := rfl
  row := fun _ _ => rfl
  col := fun _ _ => rfl

theorem plain_15_2_2 : DenseVec.Plain dot_S15x2_S2x2_S15x2_1_0_0_1_n_n where
  rank := rfl
  size := fun _ => rfl
  lhs := rfl
  rhs := rfl
  row := fun _ _ => rfl
  col := fun _ _ => rfl

theorem plain_2_16_2 : DenseVec.Plain dot_S2x16_S16x2_S2x2_1_0_0_1_n_n where
  rank := rfl
  size := fun _ => rfl
  lhs := rfl
  rhs := rfl
  row := fun _ _ => rfl
  col := fun _ _ => rfl

end Cert.KernelIdeal.KValue

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KVBones.lean ====
/-
  The bones of the skeleton loss as the vector program computes them, read at an entry.

  A row of the difference selector times the joints is the bone of that row: the joint it ends at minus the joint it
  starts from. A matrix of plane vectors, one per row, divided by the column of its rows' floored lengths is, row by row,
  the vector divided by its floored length.
-/
import proofs.«123490_j45664092291588_2_alg».proof.Proof.KVSelect
import proofs.«123490_j45664092291588_2_alg».proof.Proof.LibRowSum
import proofs.«123490_j45664092291588_2_alg».proof.Proof.LibColumn
import Idealize.ShloMosaic.Lib.ValueLayout

noncomputable section

open scoped BigOperators

namespace Cert.KernelIdeal.KValue

open Idealize.ShloMosaic Idealize.ShloMosaic.ValueIdx Cert.BoneLoss Cert.KernelIdeal

/-- The difference selector times a matrix of joints: at (i, k) the k-th coordinate of bone i. -/
theorem diff_rows (x4 : Vec Ideal S15x16 .f32)
    (h4 : ∀ i j, x4 (ix2 i j) = Ideal.ofBits .f32 (lit0 (S15x16.rowMajor (ix2 i j))))
    (y : Joints) (i : Fin 15) (k : Fin 2) :
    matmul dot_S15x16_S16x2_S15x2_1_0_0_1_n_n (some .fp32) (φ₁ := .f32) (φ₂ := .f32) x4 y
        (constant (F := Ideal) S15x2 .f32 0x00000000#32) (ix2 i k)
      = bone y (dstJ i) (srcJ i) k := by
  refine (DenseVec.matmul_zero_ix2 plain_15_16_2 (φ₁ := .f32) (φ₂ := .f32) (some .fp32) x4 y i k).trans ?_
  refine sum_selector (fun j => x4 (ix2 i j)) (fun j => y (ix2 j k)) (dstJ i) (srcJ i) (dst_ne_src i) fun j => ?_
  show x4 (ix2 i j) = _
  rw [h4 i j, lit0_eq i j]
  split_ifs
  · exact ofBits_one
  · exact ofBits_neg_one
  · exact Ideal.ofBits_zero_f32

/-- The ground selector times a matrix of joints: at (j, k) the k-th coordinate of ground bone j. -/
theorem ground_rows (x7 : Vec Ideal S2x16 .f32)
    (h7 : ∀ j k, x7 (ix2 j k) = Ideal.ofBits .f32 (lit3 (S2x16.rowMajor (ix2 j k))))
    (y : Joints) (j : Fin 2) (k : Fin 2) :
    matmul dot_S2x16_S16x2_S2x2_1_0_0_1_n_n (some .fp32) (φ₁ := .f32) (φ₂ := .f32) x7 y
        (constant (F := Ideal) S2x2 .f32 0x00000000#32) (ix2 j k)
      = groundBone y j k := by
  refine (DenseVec.matmul_zero_ix2 plain_2_16_2 (φ₁ := .f32) (φ₂ := .f32) (some .fp32) x7 y j k).trans ?_
  refine sum_selector (fun c => x7 (ix2 j c)) (fun c => y (ix2 c k)) (gdstJ j) (gsrcJ j) (gdst_ne_gsrc j) fun c => ?_
  show x7 (ix2 j c) = _
  rw [h7 j c, lit3_eq j c]
  split_ifs
  · exact ofBits_one
  · exact ofBits_neg_one
  · exact Ideal.ofBits_zero_f32

/-- Rows divided by the column of their floored lengths: row i at k is the k-th coordinate of the unit vector of row i. -/
theorem unit_rows {n : ℕ} (p : FVec Ideal ⟨2, ![n, 2]⟩ .f32)
    (hr : (⟨2, ![n, 2]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 2]⟩)
    (i : Fin n) (k : Fin 2) :
    divf p (broadcastTo ⟨2, ![n, 2]⟩
        (maximumf (sqrt (shapeCast ⟨2, ![n, 1]⟩ (multiReduction .add [1] ⟨1, ![n]⟩ (mulf p p) 0x00000000#32 hr hφ hacc) hc))
          (broadcast ⟨2, ![n, 1]⟩ (Scalar.ofBits (F := Ideal) .f32 0x2B8CBCCC#32))) hb) (ix2 i k)
      = dir (fun k => p (ix2 i k)) k := by
  rw [divf_apply, broadcastTo_a1_ab_apply, maximumf_apply]
  show Ideal.div (p (ix2 i k)) (max (Ideal.sqrt (shapeCast ⟨2, ![n, 1]⟩ _ hc (ix2 i (0 : Fin 1)))) epsW) = _
  rw [shapeCast_a_a1_apply, multiReduction_add_rows_apply]
  rfl

section
variable (x1 : Vec Ideal S16x2 .f32) (x4 : Vec Ideal S15x16 .f32)
  (h4 : ∀ i j, x4 (ix2 i j) = Ideal.ofBits .f32 (lit0 (S15x16.rowMajor (ix2 i j))))
include h4

/-- The data bones. -/
theorem pay3_apply (i : Fin 15) (k : Fin 2) : Gen.k0_pay3 x1 x4 (ix2 i k) = dataBone x1 i k :=
  diff_rows x4 h4 x1 i k

/-- The data bones' unit tangents. -/
theorem pay4_apply (i : Fin 15) (k : Fin 2) : Gen.k0_pay4 x1 x4 (ix2 i k) = dir (dataBone x1 i) k := by
  unfold Gen.k0_pay4
  refine (unit_rows (Gen.k0_pay3 x1 x4) _ _ _ _ _ i k).trans ?_
  exact congrArg (fun v => dir v k) (funext fun c => pay3_apply x1 x4 h4 i c)

end

end Cert.KernelIdeal.KValue

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.KVResid.lean ====
/-
  The normals and the residuals of the skeleton loss as the vector program computes them, read at an entry.

  The normal of a bone is its unit tangent turned a quarter: the program joins the negated second column (written
  0 - x) with the first. The predicted bones are the difference selector's rows times the predicted joints, scaled by
  the keep mask (0 in rows 9 and 12, 1 elsewhere), plus the override table times the two leg vectors stacked as rows
  (row 9 picks the first, row 12 the second, every other row nothing): bone i, with bones 9 and 12 replaced by the
  legs. On the extended reals x · 0 = 0 and x · 1 = x for every x, so the replacement is exact.
-/
import proofs.«123490_j45664092291588_2_alg».proof.Proof.KVBones
import proofs.«123490_j45664092291588_2_alg».proof.Proof.LibJoinCols

noncomputable section

open scoped BigOperators

namespace Cert.KernelIdeal.KValue

open Idealize.ShloMosaic Idealize.ShloMosaic.ValueIdx Cert.BoneLoss Cert.KernelIdeal

/-- The override table's two columns: row 9 in the first, row 12 in the second. -/
theorem lit2_col0 : ∀ i : Fin 15, lit2 (S15x2.rowMajor (ix2 i (0 : Fin 2))) = if i = 9 then 0x3F800000#32 else 0x00000000#32 := by
  decide +kernel
theorem lit2_col1 : ∀ i : Fin 15, lit2 (S15x2.rowMajor (ix2 i (1 : Fin 2))) = if i = 12 then 0x3F800000#32 else 0x00000000#32 := by
  decide +kernel

/-- Two rows stacked: the first row. -/
theorem stack_top {α : Type} (a b : S1x2.Idx → α) (h : Shape.Concatenates [S1x2, S1x2] S2x2 0) (k : Fin 2) :
    concatenate S2x2 0 [⟨S1x2, a⟩, ⟨S1x2, b⟩] h (ix2 (0 : Fin 2) k) = a (ix2 (0 : Fin 1) k) :=
  concatenate_pair_apply_left 0 a b h (ix2 (0 : Fin 2) k) rfl (ix2 (0 : Fin 1) k)
    (fun c => match c with | ⟨0, _⟩ => rfl | ⟨1, _⟩ => rfl)

/-- Two rows stacked: the second row. -/
theorem stack_bot {α : Type} (a b : S1x2.Idx → α) (h : Shape.Concatenates [S1x2, S1x2] S2x2 0) (k : Fin 2) :
    concatenate S2x2 0 [⟨S1x2, a⟩, ⟨S1x2, b⟩] h (ix2 (1 : Fin 2) k) = b (ix2 (0 : Fin 1) k) :=
  concatenate_pair_apply_right 0 a b h (ix2 (1 : Fin 2) k) rfl rfl (ix2 (0 : Fin 1) k)
    (fun c hc => match c with | ⟨0, _⟩ => absurd rfl hc | ⟨1, _⟩ => rfl)
    rfl

section
variable (x0 : Vec Ideal S16x3 .f32) (x1 : Vec Ideal S16x2 .f32) (x2 x3 : Vec Ideal S1x2 .f32)
  (x4 : Vec Ideal S15x16 .f32) (x5 : Vec Ideal S15x1 .f32) (x6 : Vec Ideal S15x2 .f32)
  (h4 : ∀ i j, x4 (ix2 i j) = Ideal.ofBits .f32 (lit0 (S15x16.rowMajor (ix2 i j))))
  (h5 : ∀ i, x5 (ix2 i (0 : Fin 1)) = Ideal.ofBits .f32 (lit1 (S15x1.rowMajor (ix2 i (0 : Fin 1)))))
  (h6 : ∀ i r, x6 (ix2 i r) = Ideal.ofBits .f32 (lit2 (S15x2.rowMajor (ix2 i r))))

include h4 in
/-- The data bones' normals. -/
theorem pay5_apply (i : Fin 15) (k : Fin 2) : Gen.k0_pay5 x1 x4 (ix2 i k) = perp (dir (dataBone x1 i)) k := by
  unfold Gen.k0_pay5
  by_cases hk : k = 0
  · subst hk
    refine (JoinCols.pair_left _ _ _ i (0 : Fin 1) (0 : Fin 2) rfl).trans ?_
    rw [subf_apply, broadcast_apply, slice2_axis1_apply 1 _ _ i (0 : Fin 1) (1 : Fin 2) rfl, pay4_apply x1 x4 h4]
    show Ideal.ofBits .f32 0x00000000#32 - _ = -_
    rw [Ideal.ofBits_zero_f32, zero_sub]
  · have h1 : k = 1 := by omega
    subst h1
    refine (JoinCols.pair_right _ _ _ i (0 : Fin 1) (1 : Fin 2) rfl).trans ?_
    rw [slice2_axis1_apply 0 _ _ i (0 : Fin 1) (0 : Fin 2) rfl, pay4_apply x1 x4 h4]
    rfl

include h6 in
/-- The override table times the stacked legs: row 9 is the first leg, row 12 the second, every other row zero. -/
theorem override_rows (legs : FVec Ideal S2x2 .f32) (i : Fin 15) (k : Fin 2) :
    matmul dot_S15x2_S2x2_S15x2_1_0_0_1_n_n (some .fp32) (φ₁ := .f32) (φ₂ := .f32) x6 legs
        (constant (F := Ideal) S15x2 .f32 0x00000000#32) (ix2 i k)
      = (if i = 9 then 1 else 0) * legs (ix2 (0 : Fin 2) k) + (if i = 12 then 1 else 0) * legs (ix2 (1 : Fin 2) k) := by
  refine (DenseVec.matmul_zero_ix2 plain_15_2_2 (φ₁ := .f32) (φ₂ := .f32) (some .fp32) x6 legs i k).trans ?_
  rw [Fin.sum_univ_two, h6 i 0, h6 i 1, lit2_col0 i, lit2_col1 i]
  congr 2
  · split_ifs
    · exact ofBits_one
    · exact Ideal.ofBits_zero_f32
  · split_ifs
    · exact ofBits_one
    · exact Ideal.ofBits_zero_f32

include h4 h5 h6 in
/-- The residuals: predicted bone minus data bone. -/
theorem pay6_apply (i : Fin 15) (k : Fin 2) :
    Gen.k0_pay6 x0 x1 x2 x3 x4 x5 x6 (ix2 i k)
      = resid x1 (firstTwo x0) (fun k => x2 (ix2 (0 : Fin 1) k)) (fun k => x3 (ix2 (0 : Fin 1) k)) i k := by
  unfold Gen.k0_pay6
  rw [subf_apply, addf_apply, mulf_apply, pay3_apply x1 x4 h4, override_rows x6 h6, stack_top, stack_bot,
    shapeCast_self, shapeCast_self, broadcastTo_a1_ab_apply, h5 i, lit1_eq i]
  refine congrArg (· - dataBone x1 i k) ?_
  refine (congrArg (fun b => b * _ + _) (diff_rows x4 h4 (Gen.k0_pay2 x0) i k)).trans ?_
  show bone (firstTwo x0) (dstJ i) (srcJ i) k * _ + _ = predBone (firstTwo x0) _ _ i k
  unfold predBone
  by_cases h9 : i = 9
  · subst h9
    simp only [if_true, ofBits_one, Ideal.ofBits_zero_f32, mul_zero, one_mul, zero_mul, add_zero, zero_add,
      show ¬((9 : Fin 15) = 12) by decide, if_false]
  · by_cases h12 : i = 12
    · subst h12
      simp only [if_true, ofBits_one, Ideal.ofBits_zero_f32, mul_zero, one_mul, zero_mul, add_zero, zero_add,
        show ¬((12 : Fin 15) = 9) by decide, if_false]
    · simp only [if_neg h9, if_neg h12, ofBits_one, mul_one, zero_mul, add_zero]

include h4 h5 h6 in
/-- The residuals against the unit tangents, coordinate by coordinate. -/
theorem pay7_apply (i : Fin 15) (k : Fin 2) :
    Gen.k0_pay7 x0 x1 x2 x3 x4 x5 x6 (ix2 i k)
      = resid x1 (firstTwo x0) (fun k => x2 (ix2 (0 : Fin 1) k)) (fun k => x3 (ix2 (0 : Fin 1) k)) i k
          * dir (dataBone x1 i) k := by
  unfold Gen.k0_pay7
  rw [mulf_apply, pay6_apply x0 x1 x2 x3 x4 x5 x6 h4 h5 h6, pay4_apply x1 x4 h4]

end

end Cert.KernelIdeal.KValue

end
-- ==== Proof.LibColSum.lean ====
/-
  A sum down the columns of a matrix, read at an index on the extended reals: a reduction of an [n, k] matrix over
  its rows (axis 0), into the zero accumulator, is at column c the sum over the n rows of the column's entries.
  (The counterpart, along axis 0, of the lane sum over the columns of a row.)
-/
import Idealize.ShloMosaic.PureOps.Ideal.Laws
import Idealize.ShloMosaic.Lib.ValueIdx

namespace Idealize.ShloMosaic.ColSum

open Idealize.ShloMosaic Idealize.ShloMosaic.ValueIdx
open scoped BigOperators

/-- The reduced index `c` with the row `d` put back is the matrix index `(d, c)`. -/
theorem lift_cols {n k : ℕ} (h : (⟨2, ![n, k]⟩ : Shape).Reduces [0] ⟨1, ![k]⟩) (c : Fin k) (d : Fin n) :
    h.lift (ix1 c) d = ix2 d c :=
  funext fun a => Fin.ext (by match a with | ⟨0, _⟩ => rfl | ⟨1, _⟩ => rfl)

/-- A float sum over the rows of an `[n, k]` matrix, at column `c`, is the sum of the column's `n` entries. -/
theorem multiReduction_add_cols_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = FKind.add.neutral .f32 hφ) (c : Fin k) :
    multiReduction .add [0] ⟨1, ![k]⟩ src 0x00000000#32 h hφ hacc (ix1 c) = ∑ d : Fin n, src (ix2 d c) :=
  (Ideal.multiReduction_add_single src 0x00000000#32 h hφ hacc (ix1 c)).trans
    (Finset.sum_congr rfl fun d _ => congrArg src (lift_cols h c d))

end Idealize.ShloMosaic.ColSum
-- ==== Proof.KVJoin.lean ====
/-
  Seven one-entry blocks laid side by side in a row of seven: the entry at column k is the k-th block's one entry.
  A sum along each row kept as a column, and the mean of the squares of a column, read at an entry.
-/
import proofs.«123490_j45664092291588_2_alg».proof.Proof.KVResid
import proofs.«123490_j45664092291588_2_alg».proof.Proof.LibColSum

noncomputable section

open scoped BigOperators

namespace Cert.KernelIdeal.KValue

open Idealize.ShloMosaic Idealize.ShloMosaic.ValueIdx Cert.BoneLoss Cert.KernelIdeal

theorem join7_0 {α : Type} (p0 p1 p2 p3 p4 p5 p6 : S1x1.Idx → α)
    (h : Shape.Concatenates [S1x1, S1x1, S1x1, S1x1, S1x1, S1x1, S1x1] S1x7 1) :
    concatenate S1x7 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (0 : Fin 7)) = p0 (ix2 (0 : Fin 1) (0 : Fin 1)) :=
  concatenate_apply_piece 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (0 : Fin 7)) 0 (by simp) _ p0 rfl rfl 0 (by simp) (ix2 (0 : Fin 1) (0 : Fin 1))
    (fun b hb => match b with | ⟨0, _⟩ => rfl | ⟨1, _⟩ => absurd rfl hb) rfl

theorem join7_1 {α : Type} (p0 p1 p2 p3 p4 p5 p6 : S1x1.Idx → α)
    (h : Shape.Concatenates [S1x1, S1x1, S1x1, S1x1, S1x1, S1x1, S1x1] S1x7 1) :
    concatenate S1x7 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (1 : Fin 7)) = p1 (ix2 (0 : Fin 1) (0 : Fin 1)) :=
  concatenate_apply_piece 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (1 : Fin 7)) 1 (by simp) _ p1 rfl rfl 1 (by simp) (ix2 (0 : Fin 1) (0 : Fin 1))
    (fun b hb => match b with | ⟨0, _⟩ => rfl | ⟨1, _⟩ => absurd rfl hb) rfl

theorem join7_2 {α : Type} (p0 p1 p2 p3 p4 p5 p6 : S1x1.Idx → α)
    (h : Shape.Concatenates [S1x1, S1x1, S1x1, S1x1, S1x1, S1x1, S1x1] S1x7 1) :
    concatenate S1x7 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (2 : Fin 7)) = p2 (ix2 (0 : Fin 1) (0 : Fin 1)) :=
  concatenate_apply_piece 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (2 : Fin 7)) 2 (by simp) _ p2 rfl rfl 2 (by simp) (ix2 (0 : Fin 1) (0 : Fin 1))
    (fun b hb => match b with | ⟨0, _⟩ => rfl | ⟨1, _⟩ => absurd rfl hb) rfl

theorem join7_3 {α : Type} (p0 p1 p2 p3 p4 p5 p6 : S1x1.Idx → α)
    (h : Shape.Concatenates [S1x1, S1x1, S1x1, S1x1, S1x1, S1x1, S1x1] S1x7 1) :
    concatenate S1x7 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (3 : Fin 7)) = p3 (ix2 (0 : Fin 1) (0 : Fin 1)) :=
  concatenate_apply_piece 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (3 : Fin 7)) 3 (by simp) _ p3 rfl rfl 3 (by simp) (ix2 (0 : Fin 1) (0 : Fin 1))
    (fun b hb => match b with | ⟨0, _⟩ => rfl | ⟨1, _⟩ => absurd rfl hb) rfl

theorem join7_4 {α : Type} (p0 p1 p2 p3 p4 p5 p6 : S1x1.Idx → α)
    (h : Shape.Concatenates [S1x1, S1x1, S1x1, S1x1, S1x1, S1x1, S1x1] S1x7 1) :
    concatenate S1x7 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (4 : Fin 7)) = p4 (ix2 (0 : Fin 1) (0 : Fin 1)) :=
  concatenate_apply_piece 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (4 : Fin 7)) 4 (by simp) _ p4 rfl rfl 4 (by simp) (ix2 (0 : Fin 1) (0 : Fin 1))
    (fun b hb => match b with | ⟨0, _⟩ => rfl | ⟨1, _⟩ => absurd rfl hb) rfl

theorem join7_5 {α : Type} (p0 p1 p2 p3 p4 p5 p6 : S1x1.Idx → α)
    (h : Shape.Concatenates [S1x1, S1x1, S1x1, S1x1, S1x1, S1x1, S1x1] S1x7 1) :
    concatenate S1x7 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (5 : Fin 7)) = p5 (ix2 (0 : Fin 1) (0 : Fin 1)) :=
  concatenate_apply_piece 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (5 : Fin 7)) 5 (by simp) _ p5 rfl rfl 5 (by simp) (ix2 (0 : Fin 1) (0 : Fin 1))
    (fun b hb => match b with | ⟨0, _⟩ => rfl | ⟨1, _⟩ => absurd rfl hb) rfl

theorem join7_6 {α : Type} (p0 p1 p2 p3 p4 p5 p6 : S1x1.Idx → α)
    (h : Shape.Concatenates [S1x1, S1x1, S1x1, S1x1, S1x1, S1x1, S1x1] S1x7 1) :
    concatenate S1x7 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (6 : Fin 7)) = p6 (ix2 (0 : Fin 1) (0 : Fin 1)) :=
  concatenate_apply_piece 1 [⟨S1x1, p0⟩, ⟨S1x1, p1⟩, ⟨S1x1, p2⟩, ⟨S1x1, p3⟩, ⟨S1x1, p4⟩, ⟨S1x1, p5⟩, ⟨S1x1, p6⟩] h (ix2 (0 : Fin 1) (6 : Fin 7)) 6 (by simp) _ p6 rfl rfl 6 (by simp) (ix2 (0 : Fin 1) (0 : Fin 1))
    (fun b hb => match b with | ⟨0, _⟩ => rfl | ⟨1, _⟩ => absurd rfl hb) rfl

/-- The sums along the rows of a matrix of plane vectors, kept as a column: row i holds the sum of its two entries. -/
theorem row_sum {n : ℕ} (w : FVec Ideal ⟨2, ![n, 2]⟩ .f32)
    (hr : (⟨2, ![n, 2]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (i : Fin n) :
    shapeCast ⟨2, ![n, 1]⟩ (multiReduction .add [1] ⟨1, ![n]⟩ w 0x00000000#32 hr hφ hacc) hc (ix2 i (0 : Fin 1))
      = ∑ d : Fin 2, w (ix2 i d) := by
  rw [shapeCast_a_a1_apply, multiReduction_add_rows_apply]

/-- The sum of the squares of a column's entries divided by a constant. -/
theorem mean_sq {n : ℕ} (col : FVec Ideal ⟨2, ![n, 1]⟩ .f32) (w : BitVec 32)
    (hr : (⟨2, ![n, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) :
    divf (shapeCast ⟨2, ![1, 1]⟩ (multiReduction .add [0] ⟨1, ![1]⟩ (mulf col col) 0x00000000#32 hr hφ hacc) hc)
        (broadcast ⟨2, ![1, 1]⟩ (Scalar.ofBits (F := Ideal) .f32 w)) (ix2 (0 : Fin 1) (0 : Fin 1))
      = Ideal.div (∑ i : Fin n, col (ix2 i (0 : Fin 1)) * col (ix2 i (0 : Fin 1))) (Ideal.ofBits .f32 w) := by
  rw [divf_apply, broadcast_apply, shapeCast_a_a1_apply, ColSum.multiReduction_add_cols_apply]
  rfl

end Cert.KernelIdeal.KValue

end
-- ==== Proof.KVOut.lean ====
/-
  The row of seven numbers the vector program stores is the skeleton loss.

  The tangent terms are the sums along the rows of residual · unit tangent, the parallel terms the sums along the rows
  of residual · normal; each loss is the sum of the squares of its column of terms divided by fifteen. The ground
  selector's rows times the predicted joints are the two ground bones; each is divided by its floored length, the
  first coordinate's absolute value (the larger of x and -x) is taken, one is subtracted, and the ground loss is the
  sum of the two squares divided by two. The seven blocks laid side by side are these three losses at columns 0, 2
  and 4 and the zero word elsewhere.
-/
import proofs.«123490_j45664092291588_2_alg».proof.Proof.KVJoin

noncomputable section

open scoped BigOperators

namespace Cert.KernelIdeal.KValue

open Idealize.ShloMosaic Idealize.ShloMosaic.ValueIdx Cert.BoneLoss Cert.KernelIdeal

/-- The stored row from the tangents' normals, the residuals and their products with the unit tangents, each given
    entry by entry. -/
theorem out_apply (x7 : Vec Ideal S2x16 .f32) (x8 : Vec Ideal S2x1 .f32)
    (h7 : ∀ j k, x7 (ix2 j k) = Ideal.ofBits .f32 (lit3 (S2x16.rowMajor (ix2 j k))))
    (h8 : ∀ j, x8 (ix2 j (0 : Fin 1)) = Ideal.ofBits .f32 0x3F800000#32)
    (yd yp : Joints) (rl ll : Fin 2 → EReal) (v25 v32 v33 : FVec Ideal S15x2 .f32)
    (h25 : ∀ i k, v25 (ix2 i k) = perp (dir (dataBone yd i)) k)
    (h32 : ∀ i k, v32 (ix2 i k) = resid yd yp rl ll i k)
    (h33 : ∀ i k, v33 (ix2 i k) = resid yd yp rl ll i k * dir (dataBone yd i) k) (q : Fin 7) :
    Gen.k0_pay1 x7 x8 yp v25 v32 v33 (ix2 (0 : Fin 1) q) = loss yd yp rl ll q := by
  unfold Gen.k0_pay1
  fin_cases q
  · refine (join7_0 _ _ _ _ _ _ _ _).trans ?_
    refine (mean_sq _ _ _ _ _ _).trans ?_
    show _ = tanLoss yd yp rl ll
    unfold tanLoss fifteenW
    refine congrArg (fun s => Ideal.div s _) (Finset.sum_congr rfl fun i _ => ?_)
    refine congrArg₂ (· * ·) ?_ ?_ <;>
      exact (row_sum v33 _ _ _ _ i).trans (Finset.sum_congr rfl fun d _ => h33 i d)
  · refine (join7_1 _ _ _ _ _ _ _ _).trans ?_
    exact Ideal.ofBits_zero_f32
  · refine (join7_2 _ _ _ _ _ _ _ _).trans ?_
    refine (mean_sq _ _ _ _ _ _).trans ?_
    show _ = parLoss yd yp rl ll
    unfold parLoss fifteenW
    refine congrArg (fun s => Ideal.div s _) (Finset.sum_congr rfl fun i _ => ?_)
    refine congrArg₂ (· * ·) ?_ ?_ <;>
      exact (row_sum (mulf v32 v25) _ _ _ _ i).trans
        (show ∑ d : Fin 2, mulf v32 v25 (ix2 i d) = ∑ d : Fin 2, resid yd yp rl ll i d * perp (dir (dataBone yd i)) d from
          Finset.sum_congr rfl fun d _ => by rw [mulf_apply, h32 i d, h25 i d])
  · refine (join7_3 _ _ _ _ _ _ _ _).trans ?_
    exact Ideal.ofBits_zero_f32
  · refine (join7_4 _ _ _ _ _ _ _ _).trans ?_
    refine (mean_sq _ _ _ _ _ _).trans ?_
    show _ = groundLoss yp
    unfold groundLoss twoW
    refine congrArg (fun s => Ideal.div s _) (Finset.sum_congr rfl fun j _ => ?_)
    refine congrArg₂ (· * ·) ?_ ?_
    all_goals
      rw [subf_apply, h8 j]
      show max _ (-_) - oneW = _
      rw [slice2_axis1_apply 0 _ _ j (0 : Fin 1) (0 : Fin 2) rfl]
      exact congrArg (fun a => max a (-a) - oneW)
        ((unit_rows _ _ _ _ _ _ j (0 : Fin 2)).trans
          (congrArg (fun v => dir v 0) (funext fun k => ground_rows x7 h7 yp j k)))
  · refine (join7_5 _ _ _ _ _ _ _ _).trans ?_
    exact Ideal.ofBits_zero_f32
  · refine (join7_6 _ _ _ _ _ _ _ _).trans ?_
    exact Ideal.ofBits_zero_f32

/-- THE BODY'S ARITHMETIC IS THE SPECIFICATION: over any input blocks whose five constant operands are their tables,
    the stored row read at column q is the loss's q-th number. -/
theorem body_value (x0 : Vec Ideal S16x3 .f32) (x1 : Vec Ideal S16x2 .f32) (x2 x3 : Vec Ideal S1x2 .f32)
    (x4 : Vec Ideal S15x16 .f32) (x5 : Vec Ideal S15x1 .f32) (x6 : Vec Ideal S15x2 .f32)
    (x7 : Vec Ideal S2x16 .f32) (x8 : Vec Ideal S2x1 .f32)
    (h4 : ∀ i j, x4 (ix2 i j) = Ideal.ofBits .f32 (lit0 (S15x16.rowMajor (ix2 i j))))
    (h5 : ∀ i, x5 (ix2 i (0 : Fin 1)) = Ideal.ofBits .f32 (lit1 (S15x1.rowMajor (ix2 i (0 : Fin 1)))))
    (h6 : ∀ i r, x6 (ix2 i r) = Ideal.ofBits .f32 (lit2 (S15x2.rowMajor (ix2 i r))))
    (h7 : ∀ j k, x7 (ix2 j k) = Ideal.ofBits .f32 (lit3 (S2x16.rowMajor (ix2 j k))))
    (h8 : ∀ j, x8 (ix2 j (0 : Fin 1)) = Ideal.ofBits .f32 0x3F800000#32) (q : Fin 7) :
    Gen.k0_pay1 x7 x8 (Gen.k0_pay2 x0) (Gen.k0_pay5 x1 x4) (Gen.k0_pay6 x0 x1 x2 x3 x4 x5 x6)
        (Gen.k0_pay7 x0 x1 x2 x3 x4 x5 x6) (ix2 (0 : Fin 1) q)
      = loss x1 (firstTwo x0) (fun k => x2 (ix2 (0 : Fin 1) k)) (fun k => x3 (ix2 (0 : Fin 1) k)) q :=
  out_apply x7 x8 h7 h8 x1 (firstTwo x0) _ _ _ _ _
    (pay5_apply x1 x4 h4) (pay6_apply x0 x1 x2 x3 x4 x5 x6 h4 h5 h6) (pay7_apply x0 x1 x2 x3 x4 x5 x6 h4 h5 h6) q

end Cert.KernelIdeal.KValue

end
-- ==== Proof.KernelRun.lean ====
/-
  The kernel program's run with its result named.

  The kernel is launched at one grid point, every operand's block being its whole array: the two joint tables as
  launched, the two leg vectors laid as rows, and five constant tables (the bone selector, the keep mask, the one-hot
  override, the ground selector, a column of ones).  What the body leaves in the output block is the skeleton loss of
  those (the body's arithmetic read at an entry), so the [1, 7] output array ends at that loss, and the one host
  operation after the region lays it as the vector of seven.
-/
import proofs.«123490_j45664092291588_2_alg».proof.Proof.Gen.KernelIdeal.Frame
import proofs.«123490_j45664092291588_2_alg».proof.Proof.Spec
import proofs.«123490_j45664092291588_2_alg».proof.Proof.KVOut
import Idealize.ShloMosaic.Lib.Pipeline.Value
import Idealize.ShloMosaic.Lib.ValueLayout
import Idealize.ShloMosaic.Lib.StableHlo.Run

noncomputable section

open scoped BigOperators

namespace Cert.KernelIdeal.KRun

open Cert.KernelIdeal Cert.KernelIdeal.Gen Cert.BoneLoss Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The operands as the region finds them -/

theorem V_cst (c : Dev nD) : (V m c main_cst : S15x16.Idx → EReal) = fun i => Ideal.ofBits .f32 (lit0 (S15x16.rowMajor i)) := by
  show StableHlo.after hostOps0 (fun b => m (c, b)) (Proc.devRef .tc main_cst) = _
  after_results
  rfl
theorem V_cst_0 (c : Dev nD) : (V m c main_cst_0 : S15x1.Idx → EReal) = fun i => Ideal.ofBits .f32 (lit1 (S15x1.rowMajor i)) := by
  show StableHlo.after hostOps0 (fun b => m (c, b)) (Proc.devRef .tc main_cst_0) = _
  after_results
  rfl
theorem V_cst_1 (c : Dev nD) : (V m c main_cst_1 : S15x2.Idx → EReal) = fun i => Ideal.ofBits .f32 (lit2 (S15x2.rowMajor i)) := by
  show StableHlo.after hostOps0 (fun b => m (c, b)) (Proc.devRef .tc main_cst_1) = _
  after_results
  rfl
theorem V_cst_2 (c : Dev nD) : (V m c main_cst_2 : S2x16.Idx → EReal) = fun i => Ideal.ofBits .f32 (lit3 (S2x16.rowMajor i)) := by
  show StableHlo.after hostOps0 (fun b => m (c, b)) (Proc.devRef .tc main_cst_2) = _
  after_results
  rfl
theorem V_cst_3 (c : Dev nD) : (V m c main_cst_3 : S2x1.Idx → EReal) = fun _ => Ideal.ofBits .f32 0x3F800000#32 := by
  show StableHlo.after hostOps0 (fun b => m (c, b)) (Proc.devRef .tc main_cst_3) = _
  after_results
  rfl
/-- The right leg vector laid as a row. -/
theorem V_v0 (c : Dev nD) : (V m c main_v0 : S1x2.Idx → EReal)
    = shapeCast S1x2 (m ((c.tc : Thread nD τ).loc main_arg3)) shapeCasts_S2_S1x2 := by
  show StableHlo.after hostOps0 (fun b => m (c, b)) (Proc.devRef .tc main_v0) = _
  after_results
  rfl
/-- The left leg vector laid as a row. -/
theorem V_v1 (c : Dev nD) : (V m c main_v1 : S1x2.Idx → EReal)
    = shapeCast S1x2 (m ((c.tc : Thread nD τ).loc main_arg4)) shapeCasts_S2_S1x2 := by
  show StableHlo.after hostOps0 (fun b => m (c, b)) (Proc.devRef .tc main_v1) = _
  after_results
  rfl

/-! ## The one grid point: every block is its whole array -/

theorem hz : (![0, 0] : Fin 2 → Nat) = fun _ => 0 := funext fun a => by fin_cases a <;> rfl

/-- Every window's block index at the one point is zero on both axes. -/
theorem idx_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- At the one grid point the block of window 0 is its whole array. -/
theorem read0 (c : Dev nD) (t : Fin cfg0.N) (y : S16x3.Idx) : iblk m c 0 t y = V m c main_arg0 y := by
  show V m c main_arg0 (((cfg0.win 0).blk t).view.emb y) = V m c main_arg0 y
  refine congrArg _ (funext fun a => Fin.ext ?_)
  have h := (idx_zero t).1
  match a with
  | ⟨0, _⟩ => show win0_0.index t (0 : Fin 2) * 16 + 1 * (y 0).val = (y 0).val; rw [h.1]; omega
  | ⟨1, _⟩ => show win0_0.index t (1 : Fin 2) * 3 + 1 * (y 1).val = (y 1).val; rw [h.2]; omega

/-- At the one grid point the block of window 1 is its whole array. -/
theorem read1 (c : Dev nD) (t : Fin cfg0.N) (y : S16x2.Idx) : iblk m c 1 t y = V m c main_arg1 y := by
  show V m c main_arg1 (((cfg0.win 1).blk t).view.emb y) = V m c main_arg1 y
  refine congrArg _ (funext fun a => Fin.ext ?_)
  have h := (idx_zero t).2.1
  match a with
  | ⟨0, _⟩ => show win0_1.index t (0 : Fin 2) * 16 + 1 * (y 0).val = (y 0).val; rw [h.1]; omega
  | ⟨1, _⟩ => show win0_1.index t (1 : Fin 2) * 2 + 1 * (y 1).val = (y 1).val; rw [h.2]; omega

/-- At the one grid point the block of window 2 is its whole array. -/
theorem read2 (c : Dev nD) (t : Fin cfg0.N) (y : S1x2.Idx) : iblk m c 2 t y = V m c main_v0 y := by
  show V m c main_v0 (((cfg0.win 2).blk t).view.emb y) = V m c main_v0 y
  refine congrArg _ (funext fun a => Fin.ext ?_)
  have h := (idx_zero t).2.2.1
  match a with
  | ⟨0, _⟩ => show win0_2.index t (0 : Fin 2) * 1 + 1 * (y 0).val = (y 0).val; rw [h.1]; omega
  | ⟨1, _⟩ => show win0_2.index t (1 : Fin 2) * 2 + 1 * (y 1).val = (y 1).val; rw [h.2]; omega

/-- At the one grid point the block of window 3 is its whole array. -/
theorem read3 (c : Dev nD) (t : Fin cfg0.N) (y : S1x2.Idx) : iblk m c 3 t y = V m c main_v1 y := by
  show V m c main_v1 (((cfg0.win 3).blk t).view.emb y) = V m c main_v1 y
  refine congrArg _ (funext fun a => Fin.ext ?_)
  have h := (idx_zero t).2.2.2.1
  match a with
  | ⟨0, _⟩ => show win0_3.index t (0 : Fin 2) * 1 + 1 * (y 0).val = (y 0).val; rw [h.1]; omega
  | ⟨1, _⟩ => show win0_3.index t (1 : Fin 2) * 2 + 1 * (y 1).val = (y 1).val; rw [h.2]; omega

/-- At the one grid point the block of window 4 is its whole array. -/
theorem read4 (c : Dev nD) (t : Fin cfg0.N) (y : S15x16.Idx) : iblk m c 4 t y = V m c main_cst y := by
  show V m c main_cst (((cfg0.win 4).blk t).view.emb y) = V m c main_cst y
  refine congrArg _ (funext fun a => Fin.ext ?_)
  have h := (idx_zero t).2.2.2.2.1
  match a with
  | ⟨0, _⟩ => show win0_4.index t (0 : Fin 2) * 15 + 1 * (y 0).val = (y 0).val; rw [h.1]; omega
  | ⟨1, _⟩ => show win0_4.index t (1 : Fin 2) * 16 + 1 * (y 1).val = (y 1).val; rw [h.2]; omega

/-- At the one grid point the block of window 5 is its whole array. -/
theorem read5 (c : Dev nD) (t : Fin cfg0.N) (y : S15x1.Idx) : iblk m c 5 t y = V m c main_cst_0 y := by
  show V m c main_cst_0 (((cfg0.win 5).blk t).view.emb y) = V m c main_cst_0 y
  refine congrArg _ (funext fun a => Fin.ext ?_)
  have h := (idx_zero t).2.2.2.2.2.1
  match a with
  | ⟨0, _⟩ => show win0_5.index t (0 : Fin 2) * 15 + 1 * (y 0).val = (y 0).val; rw [h.1]; omega
  | ⟨1, _⟩ => show win0_5.index t (1 : Fin 2) * 1 + 1 * (y 1).val = (y 1).val; rw [h.2]; omega

/-- At the one grid point the block of window 6 is its whole array. -/
theorem read6 (c : Dev nD) (t : Fin cfg0.N) (y : S15x2.Idx) : iblk m c 6 t y = V m c main_cst_1 y := by
  show V m c main_cst_1 (((cfg0.win 6).blk t).view.emb y) = V m c main_cst_1 y
  refine congrArg _ (funext fun a => Fin.ext ?_)
  have h := (idx_zero t).2.2.2.2.2.2.1
  match a with
  | ⟨0, _⟩ => show win0_6.index t (0 : Fin 2) * 15 + 1 * (y 0).val = (y 0).val; rw [h.1]; omega
  | ⟨1, _⟩ => show win0_6.index t (1 : Fin 2) * 2 + 1 * (y 1).val = (y 1).val; rw [h.2]; omega

/-- At the one grid point the block of window 7 is its whole array. -/
theorem read7 (c : Dev nD) (t : Fin cfg0.N) (y : S2x16.Idx) : iblk m c 7 t y = V m c main_cst_2 y := by
  show V m c main_cst_2 (((cfg0.win 7).blk t).view.emb y) = V m c main_cst_2 y
  refine congrArg _ (funext fun a => Fin.ext ?_)
  have h := (idx_zero t).2.2.2.2.2.2.2.1
  match a with
  | ⟨0, _⟩ => show win0_7.index t (0 : Fin 2) * 2 + 1 * (y 0).val = (y 0).val; rw [h.1]; omega
  | ⟨1, _⟩ => show win0_7.index t (1 : Fin 2) * 16 + 1 * (y 1).val = (y 1).val; rw [h.2]; omega

/-- At the one grid point the block of window 8 is its whole array. -/
theorem read8 (c : Dev nD) (t : Fin cfg0.N) (y : S2x1.Idx) : iblk m c 8 t y = V m c main_cst_3 y := by
  show V m c main_cst_3 (((cfg0.win 8).blk t).view.emb y) = V m c main_cst_3 y
  refine congrArg _ (funext fun a => Fin.ext ?_)
  have h := (idx_zero t).2.2.2.2.2.2.2.2.1
  match a with
  | ⟨0, _⟩ => show win0_8.index t (0 : Fin 2) * 2 + 1 * (y 0).val = (y 0).val; rw [h.1]; omega
  | ⟨1, _⟩ => show win0_8.index t (1 : Fin 2) * 1 + 1 * (y 1).val = (y 1).val; rw [h.2]; omega

/-! ## The output block and the output array -/

/-- The [1, 7] array the region leaves: the skeleton loss of the launch contents, position by position. -/
def lossRow (c : Dev nD) : S1x7.Idx → EReal := fun i =>
  loss (m ((c.tc : Thread nD τ).loc main_arg1)) (firstTwo (m ((c.tc : Thread nD τ).loc main_arg0)))
    (pair (m ((c.tc : Thread nD τ).loc main_arg3))) (pair (m ((c.tc : Thread nD τ).loc main_arg4))) (i 1)

/-- The body's output payload, over operands known entry by entry, is the loss at the entry's position. -/
theorem out_at (x0 : Vec Ideal S16x3 .f32) (x1 : Vec Ideal S16x2 .f32) (x2 x3 : Vec Ideal S1x2 .f32)
    (x4 : Vec Ideal S15x16 .f32) (x5 : Vec Ideal S15x1 .f32) (x6 : Vec Ideal S15x2 .f32) (x7 : Vec Ideal S2x16 .f32)
    (x8 : Vec Ideal S2x1 .f32)
    (h4 : ∀ (i : Fin 15) (j : Fin 16), x4 (ix2 i j) = Ideal.ofBits .f32 (lit0 (S15x16.rowMajor (ix2 i j))))
    (h5 : ∀ i : Fin 15, x5 (ix2 i (0 : Fin 1)) = Ideal.ofBits .f32 (lit1 (S15x1.rowMajor (ix2 i (0 : Fin 1)))))
    (h6 : ∀ (i : Fin 15) (r : Fin 2), x6 (ix2 i r) = Ideal.ofBits .f32 (lit2 (S15x2.rowMajor (ix2 i r))))
    (h7 : ∀ (j : Fin 2) (k : Fin 16), x7 (ix2 j k) = Ideal.ofBits .f32 (lit3 (S2x16.rowMajor (ix2 j k))))
    (h8 : ∀ j : Fin 2, x8 (ix2 j (0 : Fin 1)) = Ideal.ofBits .f32 0x3F800000#32)
    (A0 : Vec Ideal S16x3 .f32) (A1 : Vec Ideal S16x2 .f32) (A3 A4 : (⟨1, ![2]⟩ : Shape).Idx → EReal)
    (hx0 : ∀ y, x0 y = A0 y) (hx1 : ∀ y, x1 y = A1 y)
    (hx2 : ∀ k : Fin 2, x2 (ix2 (0 : Fin 1) k) = A3 (ix1 k)) (hx3 : ∀ k : Fin 2, x3 (ix2 (0 : Fin 1) k) = A4 (ix1 k))
    (j : S1x7.Idx) :
    k0_pay1 x7 x8 (k0_pay2 x0) (k0_pay5 x1 x4) (k0_pay6 x0 x1 x2 x3 x4 x5 x6) (k0_pay7 x0 x1 x2 x3 x4 x5 x6) j
      = loss A1 (firstTwo A0) (pair A3) (pair A4) (j 1) := by
  obtain rfl : x0 = A0 := funext hx0
  obtain rfl : x1 = A1 := funext hx1
  have e2 : pair A3 = fun k => x2 (ix2 (0 : Fin 1) k) := funext fun k => (hx2 k).symm
  have e3 : pair A4 = fun k => x3 (ix2 (0 : Fin 1) k) := funext fun k => (hx3 k).symm
  rw [e2, e3]
  obtain ⟨u, q, rfl⟩ : ∃ (u : Fin 1) (q : Fin 7), j = ix2 u q := ⟨j 0, j 1, eq_ix2 j⟩
  obtain rfl : u = 0 := Subsingleton.elim _ _
  exact Cert.KernelIdeal.KValue.body_value x0 x1 x2 x3 x4 x5 x6 x7 x8 h4 h5 h6 h7 h8 q

/-- What the one point writes back is the whole of lossRow. -/
theorem flushed9_eq (c : Dev nD) (t : Fin cfg0.N) :
    (dats m 0 c).flushed 9 t = ((cfg0.win 9).blk t).view.read (Elt Ideal) (lossRow m c) := by
  show (cfg0.win 9).cut (grid0.coords t) ((dats m 0 c).after 9 t) = _
  rw [after0_9]
  unfold out0_9
  rw [View.canon_unit_zero hz]
  simp only [View.ld_unit_zero (S := S16x3) hz, View.ld_unit_zero (S := S16x2) hz, View.ld_unit_zero (S := S1x2) hz,
    View.ld_unit_zero (S := S15x16) hz, View.ld_unit_zero (S := S15x1) hz, View.ld_unit_zero (S := S15x2) hz,
    View.ld_unit_zero (S := S2x16) hz, View.ld_unit_zero (S := S2x1) hz]
  funext j
  refine (out_at (iblk m c 0 t) (iblk m c 1 t) (iblk m c 2 t) (iblk m c 3 t) (iblk m c 4 t) (iblk m c 5 t) (iblk m c 6 t)
    (iblk m c 7 t) (iblk m c 8 t)
    (fun i j => (read4 m c t (ix2 i j)).trans (congrFun (V_cst m c) _))
    (fun i => (read5 m c t (ix2 i (0 : Fin 1))).trans (congrFun (V_cst_0 m c) _))
    (fun i r => (read6 m c t (ix2 i r)).trans (congrFun (V_cst_1 m c) _))
    (fun j k => (read7 m c t (ix2 j k)).trans (congrFun (V_cst_2 m c) _))
    (fun j => (read8 m c t (ix2 j (0 : Fin 1))).trans (congrFun (V_cst_3 m c) _))
    (m ((c.tc : Thread nD τ).loc main_arg0)) (m ((c.tc : Thread nD τ).loc main_arg1))
    (m ((c.tc : Thread nD τ).loc main_arg3)) (m ((c.tc : Thread nD τ).loc main_arg4))
    (fun y => (read0 m c t y).trans (congrFun (V_main_arg0 m c) y))
    (fun y => (read1 m c t y).trans (congrFun (V_main_arg1 m c) y))
    (fun k => ((read2 m c t (ix2 (0 : Fin 1) k)).trans (congrFun (V_v0 m c) _)).trans (shapeCast_a_1a_apply _ _ 0 k))
    (fun k => ((read3 m c t (ix2 (0 : Fin 1) k)).trans (congrFun (V_v1 m c) _)).trans (shapeCast_a_1a_apply _ _ 0 k))
    j).trans ?_
  show _ = lossRow m c (((cfg0.win 9).blk t).view.emb j)
  unfold lossRow
  have h := (idx_zero t).2.2.2.2.2.2.2.2.2
  refine congrArg _ (Fin.ext ?_)
  show (j 1).val = win0_9.index t (1 : Fin 2) * 7 + 1 * (j 1).val
  rw [h.2]; omega

/-- Every index of the output array lies in the one point's block. -/
theorem cover9 (c : Dev nD) (i : S1x7.Idx) :
    ∃ t : Fin cfg0.N, (cfg0.win 9).flush t = true ∧ i ∈ ((cfg0.win 9).blk t).view.set := by
  refine ⟨t0_0, flush0_9 t0_0, ?_⟩
  show i ∈ ((View.whole main_v2).slice (win0_9.rect t0_0)).set
  rw [View.set_slice_whole, Rect.mem_set_unit]
  have h := (idx_zero t0_0).2.2.2.2.2.2.2.2.2
  intro a
  match a with
  | ⟨0, _⟩ =>
    show win0_9.index t0_0 (0 : Fin 2) * 1 ≤ (i 0).val ∧ (i 0).val < win0_9.index t0_0 (0 : Fin 2) * 1 + 1
    have hi : (i 0).val < 1 := (i 0).isLt
    rw [h.1]; omega
  | ⟨1, _⟩ =>
    show win0_9.index t0_0 (1 : Fin 2) * 7 ≤ (i 1).val ∧ (i 1).val < win0_9.index t0_0 (1 : Fin 2) * 7 + 7
    have hi : (i 1).val < 7 := (i 1).isLt
    rw [h.2]; omega

/-- The output array after the region is lossRow. -/
theorem final9 (c : Dev nD) : (dats m 0 c).arrAt 9 cfg0.N = lossRow m c :=
  (dats m 0 c).arrAt_eq_of_cover 9 (lossRow m c) (fun t _ => flushed9_eq m c t) (cover9 c)

/-! ## The host operation after the region, and the run -/

/-- The result buffer after the reshape that follows the region: the loss as a vector of seven. -/
theorem tail_v3 (c : Dev nD) :
    Pipeline.afterTail₀ cfgs (dats m) 0 (V0 m) [hostOps1] c main_v3
      = lossVec (m ((c.tc : Thread nD τ).loc main_arg1)) (firstTwo (m ((c.tc : Thread nD τ).loc main_arg0)))
          (pair (m ((c.tc : Thread nD τ).loc main_arg3))) (pair (m ((c.tc : Thread nD τ).loc main_arg4))) := by
  unfold Pipeline.afterTail₀
  show StableHlo.after hostOps1 _ (Proc.devRef .tc main_v3) = _
  after_results
  funext q
  obtain ⟨q0, rfl⟩ : ∃ q0 : Fin 7, q = ix1 q0 := ⟨q 0, eq_ix1 q⟩
  show shapeCast S7 (Pipeline.withArrays _ c _ _ (Proc.devRef .tc main_v2)) shapeCasts_S1x7_S7 (ix1 q0) = _
  rw [shapeCast_1a_a_apply]
  have e := (Pipeline.withArrays_arr spec0 launch0.win.arr_inj c (V0 m c)
    (fun w => (dats m 0 c).arrAt w cfg0.N) 9).trans (final9 m c)
  exact congrFun e (ix2 (0 : Fin 1) q0)

set_option backward.isDefEq.respectTransparency.types false in
/-- Every weakly fair execution of the kernel program terminates with its result at the skeleton loss of the launch
    contents of its arguments, and its arguments unchanged. -/
theorem run : θ_run (defs (F := Ideal)) (onTc (τ := τ) (main (F := Ideal))) ⟨m, fun _ => 0, ρ⟩ (fun r => ∀ c : Dev nD,
      r.2.mem ((c.tc : Thread nD τ).loc main_v3)
        = lossVec (m ((c.tc : Thread nD τ).loc main_arg1)) (firstTwo (m ((c.tc : Thread nD τ).loc main_arg0)))
            (pair (m ((c.tc : Thread nD τ).loc main_arg3))) (pair (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_v3 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.KRun

end
-- ==== Proof.RefRun.lean ====
/-
  The reference program as a straight line of host operations, and its run.

  The reference computes, from the 2-D data joints y_data [16, 2], the first two columns of the predicted joints
  y_pred3d [16, 3] and the two leg vectors rleg, lleg [2]: the fifteen data bones b = y_data[dst] - y_data[src], their
  unit tangents t = b / max(|b|, eps) and normals n = (-t_y, t_x); the fifteen predicted bones a (rows 9 and 12
  overwritten by rleg and lleg); the residual c = a - b; the means of (c·t)² and (c·n)² over the bones; the two ground
  bones normalised the same way and the mean of (|g_x| - 1)²; and lays the three numbers at positions 0, 2, 4 of a
  vector of seven, zeros elsewhere.  The line is written in the two stretches the program's text is cut into (the
  first ends with the products c·t, the second starts with their sums); the two calls of the outlined norm are
  written out at their call sites over the calls' buffer records.  Every weakly fair execution terminates with each
  buffer at the fold of these operations over the launch contents.
-/
import proofs.«123490_j45664092291588_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the index tables, the data bones and their tangents and normals, the predicted bones with
    the two leg rows overwritten, the residual and its products with the tangents. -/
abbrev opsA : List (HloOp τ sig (Elt F)) :=
  [ nullary main_c (fun i => lit0 (S15.rowMajor i)),
    nullary main_c_0 (constantI S15 1 0#1),
    nullary main_c_1 (fun i => lit1 (S15.rowMajor i)),
    nullary main_c_2 (constantI S15 1 0#1),
    nullary main_c_3 (constantI S15 1 0#1),
    nullary main_c_4 (constantI S15 1 0#1),
    nullary main_c_5 (fun i => lit2 (S2.rowMajor i)),
    nullary main_c_6 (constantI S2 1 0#1),
    nullary main_c_7 (fun i => lit3 (S2.rowMajor i)),
    nullary main_c_8 (constantI S2 1 0#1),
    nullary main_cst (constant S2 .f32 0x3F800000#32),
    unary main_arg0 main_v0 ((extractStridedSlice S16x2 ![0, 0] · slices_S16x3_S16x2_0_0) : (⟨S16x3, .f32⟩ : BufTy).Contents (Elt F) → (⟨S16x2, .f32⟩ : BufTy).Contents (Elt F)),
    nullary main_c_9 (constantI S_ 32 16#32),
    unary main_c_9 main_v1 (broadcastInDim S15 ![] bcast_S_S15 : (⟨S_, .i32⟩ : BufTy).Contents (Elt F) → (⟨S15, .i32⟩ : BufTy).Contents (Elt F)),
    binary main_c main_v1 main_v2 (addi : (⟨S15, .i32⟩ : BufTy).Contents (Elt F) → (⟨S15, .i32⟩ : BufTy).Contents (Elt F) → (⟨S15, .i32⟩ : BufTy).Contents (Elt F)),
    ternary main_c_0 main_v2 main_c main_v3 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v3 main_v4 (broadcastInDim S15x1 ![0] bcast_S15_S15x1_0 : (⟨S15, .i32⟩ : BufTy).Contents (Elt F) → (⟨S15x1, .i32⟩ : BufTy).Contents (Elt F)),
    binary main_arg1 main_v4 main_v5 ((fun x i => Host.gather gather_S16x2_S15x1_S15x2_1_0_n_n_0_1_12 x i) : (⟨S16x2, .f32⟩ : BufTy).Contents (Elt F) → (⟨S15x1, .i32⟩ : BufTy).Contents (Elt F) → (⟨S15x2, .f32⟩ : BufTy).Contents (Elt F)),
    nullary main_c_10 (constantI S_ 32 16#32),
    unary main_c_10 main_v6 (broadcastInDim S15 ![] bcast_S_S15 : (⟨S_, .i32⟩ : BufTy).Contents (Elt F) → (⟨S15, .i32⟩ : BufTy).Contents (Elt F)),
    binary main_c_1 main_v6 main_v7 (addi : (⟨S15, .i32⟩ : BufTy).Contents (Elt F) → (⟨S15, .i32⟩ : BufTy).Contents (Elt F) → (⟨S15, .i32⟩ : BufTy).Contents (Elt F)),
    ternary main_c_2 main_v7 main_c_1 main_v8 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v8 main_v9 (broadcastInDim S15x1 ![0] bcast_S15_S15x1_0 : (⟨S15, .i32⟩ : BufTy).Contents (Elt F) → (⟨S15x1, .i32⟩ : BufTy).Contents (Elt F)),
    binary main_arg1 main_v9 main_v10 ((fun x i => Host.gather gather_S16x2_S15x1_S15x2_1_0_n_n_0_1_12 x i) : (⟨S16x2, .f32⟩ : BufTy).Contents (Elt F) → (⟨S15x1, .i32⟩ : BufTy).Contents (Elt F) → (⟨S15x2, .f32⟩ : BufTy).Contents (Elt F)),
    binary main_v5 main_v10 main_v11 (subf : (⟨S15x2, .f32⟩ : BufTy).Contents (Elt F) → (⟨S15x2, .f32⟩ : BufTy).Contents (Elt F) → (⟨S15x2, .f32⟩ : BufTy).Contents (Elt F)),
    TRef.binary (.of main_v11) (.of main_v11) main_call0.v0 mulf,
    TRef.nullary main_call0.cst (constant S_ .f32 0x00000000#32),
    TRef.binary main_call0.v0 main_call0.cst main_call0.v1 (fun x v => Host.reduceAdd x v reducesTo_S15x2_S15_d1 h_S_),
    TRef.unary main_call0.v1 main_call0.v2 (broadcastInDim S15x1 ![0] bcast_S15_S15x1_0),
    TRef.unary main_call0.v2 main_call0.v3 Host.sqrt,
    nullary main_cst_11 (constant S_ .f32 0x2B8CBCCC#32),
    unary main_cst_11 main_v13 (broadcastInDim S15x1 ![] bcast_S_S15x1 : (⟨S_, .f32⟩ : BufTy).Contents (Elt F) → (⟨S15x1, .f32⟩ : BufTy).Contents (Elt F)),
    binary main_v12 main_v13 main_v14 (maximumf : (⟨S15x1, .f32⟩ : BufTy).Contents (Elt F) → (⟨S15x1, .f32⟩ : BufTy).Contents (Elt F) → (⟨S15x1, .f32⟩ : BufTy).Contents (Elt F)),
    unary main_v14 main_v15 (broadcastInDim S15x2 ![0, 1] bcast_S15x1_S15x2_0_1 : (⟨S15x1, .f32⟩ : BufTy).Contents (Elt F) → (⟨S15x2, .f32⟩ : BufTy).Contents (Elt F)),
    binary main_v11 main_v15 main_v16 (Host.divf : (⟨S15x2, .f32⟩ : BufTy).Contents (Elt F) → (⟨S15x2, .f32⟩ : BufTy).Contents (Elt F) → (⟨S15x2, .f32⟩ : BufTy).Contents (Elt F)),
    unary main_v16 main_v17 ((extractStridedSlice S15x1 ![0, 1] · slices_S15x2_S15x1_0_1) : (⟨S15x2, .f32⟩ : BufTy).Contents (Elt F) → (⟨S15x1, .f32⟩ : BufTy).Contents (Elt F)),
    reshape main_v17 main_v18 rfl shapeCasts_S15x1_S15,
    unary main_v18 main_v19 (Host.negf : (⟨S15, .f32⟩ : BufTy).Contents (Elt F) → (⟨S15, .f32⟩ : BufTy).Contents (Elt F)),
    unary main_v16 main_v20 ((extractStridedSlice S15x1 ![0, 0] · slices_S15x2_S15x1_0_0) : (⟨S15x2, .f32⟩ : BufTy).Contents (Elt F) → (⟨S15x1, .f32⟩ : BufTy).Contents (Elt F)),
    reshape main_v20 main_v21 rfl shapeCasts_S15x1_S15,
    unary main_v19 main_v22 (broadcastInDim S15x1 ![0] bcast_S15_S15x1_0 : (⟨S15, .f32⟩ : BufTy).Contents (Elt F) → (⟨S15x1, .f32⟩ : BufTy).Contents (Elt F)),
    unary main_v21 main_v23 (broadcastInDim S15x1 ![0] bcast_S15_S15x1_0 : (⟨S15, .f32⟩ : BufTy).Contents (Elt F) → (⟨S15x1, .f32⟩ : BufTy).Contents (Elt F)),
    binary main_v22 main_v23 main_v24 ((fun a b => concatenate S15x2 1 [⟨S15x1, a⟩, ⟨S15x1, b⟩] concatenates_S15x1_S15x1_S15x2_d1) : (⟨S15x1, .f32⟩ : BufTy).Contents (Elt F) → (⟨S15x1, .f32⟩ : BufTy).Contents (Elt F) → (⟨S15x2, .f32⟩ : BufTy).Contents (Elt F)),
    nullary main_c_12 (constantI S_ 32 16#32),
    unary main_c_12 main_v25 (broadcastInDim S15 ![] bcast_S_S15 : (⟨S_, .i32⟩ : BufTy).Contents (Elt F) → (⟨S15, .i32⟩ : BufTy).Contents (Elt F)),
    binary main_c main_v25 main_v26 (addi : (⟨S15, .i32⟩ : BufTy).Contents (Elt F) → (⟨S15, .i32⟩ : BufTy).Contents (Elt F) → (⟨S15, .i32⟩ : BufTy).Contents (Elt F)),
    ternary main_c_3 main_v26 main_c main_v27 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v27 main_v28 (broadcastInDim S15x1 ![0] bcast_S15_S15x1_0 : (⟨S15, .i32⟩ : BufTy).Contents (Elt F) → (⟨S15x1, .i32⟩ : BufTy).Contents (Elt F)),
    binary main_v0 main_v28 main_v29 ((fun x i => Host.gather gather_S16x2_S15x1_S15x2_1_0_n_n_0_1_12 x i) : (⟨S16x2, .f32⟩ : BufTy).Contents (Elt F) → (⟨S15x1, .i32⟩ : BufTy).Contents (Elt F) → (⟨S15x2, .f32⟩ : BufTy).Contents (Elt F)),
    nullary main_c_13 (constantI S_ 32 16#32),
    unary main_c_13 main_v30 (broadcastInDim S15 ![] bcast_S_S15 : (⟨S_, .i32⟩ : BufTy).Contents (Elt F) → (⟨S15, .i32⟩ : BufTy).Contents (Elt F)),
    binary main_c_1 main_v30 main_v31 (addi : (⟨S15, .i32⟩ : BufTy).Contents (Elt F) → (⟨S15, .i32⟩ : BufTy).Contents (Elt F) → (⟨S15, .i32⟩ : BufTy).Contents (Elt F)),
    ternary main_c_4 main_v31 main_c_1 main_v32 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v32 main_v33 (broadcastInDim S15x1 ![0] bcast_S15_S15x1_0 : (⟨S15, .i32⟩ : BufTy).Contents (Elt F) → (⟨S15x1, .i32⟩ : BufTy).Contents (Elt F)),
    binary main_v0 main_v33 main_v34 ((fun x i => Host.gather gather_S16x2_S15x1_S15x2_1_0_n_n_0_1_12 x i) : (⟨S16x2, .f32⟩ : BufTy).Contents (Elt F) → (⟨S15x1, .i32⟩ : BufTy).Contents (Elt F) → (⟨S15x2, .f32⟩ : BufTy).Contents (Elt F)),
    binary main_v29 main_v34 main_v35 (subf : (⟨S15x2, .f32⟩ : BufTy).Contents (Elt F) → (⟨S15x2, .f32⟩ : BufTy).Contents (Elt F) → (⟨S15x2, .f32⟩ : BufTy).Contents (Elt F)),
    nullary main_c_14 (constantI S_ 32 9#32),
    unary main_c_14 main_v36 (broadcastInDim S1 ![] bcast_S_S1 : (⟨S_, .i32⟩ : BufTy).Contents (Elt F) → (⟨S1, .i32⟩ : BufTy).Contents (Elt F)),
    ternary main_v35 main_v36 main_arg3 main_v37 ((fun x i u => Host.scatter scatter_S15x2_S1_S2_0_0_0_0 (fun _ b => b) x i u) : (⟨S15x2, .f32⟩ : BufTy).Contents (Elt F) → (⟨S1, .i32⟩ : BufTy).Contents (Elt F) → (⟨S2, .f32⟩ : BufTy).Contents (Elt F) → (⟨S15x2, .f32⟩ : BufTy).Contents (Elt F)),
    nullary main_c_15 (constantI S_ 32 12#32),
    unary main_c_15 main_v38 (broadcastInDim S1 ![] bcast_S_S1 : (⟨S_, .i32⟩ : BufTy).Contents (Elt F) → (⟨S1, .i32⟩ : BufTy).Contents (Elt F)),
    ternary main_v37 main_v38 main_arg4 main_v39 ((fun x i u => Host.scatter scatter_S15x2_S1_S2_0_0_0_0 (fun _ b => b) x i u) : (⟨S15x2, .f32⟩ : BufTy).Contents (Elt F) → (⟨S1, .i32⟩ : BufTy).Contents (Elt F) → (⟨S2, .f32⟩ : BufTy).Contents (Elt F) → (⟨S15x2, .f32⟩ : BufTy).Contents (Elt F)),
    binary main_v39 main_v11 main_v40 (subf : (⟨S15x2, .f32⟩ : BufTy).Contents (Elt F) → (⟨S15x2, .f32⟩ : BufTy).Contents (Elt F) → (⟨S15x2, .f32⟩ : BufTy).Contents (Elt F)),
    binary main_v40 main_v16 main_v41 (mulf : (⟨S15x2, .f32⟩ : BufTy).Contents (Elt F) → (⟨S15x2, .f32⟩ : BufTy).Contents (Elt F) → (⟨S15x2, .f32⟩ : BufTy).Contents (Elt F)) ]

/-- The second stretch: the two bone losses, the ground loss, the result vector. -/
abbrev opsB : List (HloOp τ sig (Elt F)) :=
  [ nullary main_cst_16 (constant S_ .f32 0x00000000#32),
    binary main_v41 main_cst_16 main_v42 ((fun x v => Host.reduceAdd x v reducesTo_S15x2_S15_d1 h_S_) : (⟨S15x2, .f32⟩ : BufTy).Contents (Elt F) → (⟨S_, .f32⟩ : BufTy).Contents (Elt F) → (⟨S15, .f32⟩ : BufTy).Contents (Elt F)),
    binary main_v42 main_v42 main_v43 (mulf : (⟨S15, .f32⟩ : BufTy).Contents (Elt F) → (⟨S15, .f32⟩ : BufTy).Contents (Elt F) → (⟨S15, .f32⟩ : BufTy).Contents (Elt F)),
    nullary main_cst_17 (constant S_ .f32 0x00000000#32),
    binary main_v43 main_cst_17 main_v44 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)),
    nullary main_cst_18 (constant S_ .f32 0x41700000#32),
    binary main_v44 main_cst_18 main_v45 (Host.divf : (⟨S_, .f32⟩ : BufTy).Contents (Elt F) → (⟨S_, .f32⟩ : BufTy).Contents (Elt F) → (⟨S_, .f32⟩ : BufTy).Contents (Elt F)),
    binary main_v40 main_v24 main_v46 (mulf : (⟨S15x2, .f32⟩ : BufTy).Contents (Elt F) → (⟨S15x2, .f32⟩ : BufTy).Contents (Elt F) → (⟨S15x2, .f32⟩ : BufTy).Contents (Elt F)),
    nullary main_cst_19 (constant S_ .f32 0x00000000#32),
    binary main_v46 main_cst_19 main_v47 ((fun x v => Host.reduceAdd x v reducesTo_S15x2_S15_d1 h_S_) : (⟨S15x2, .f32⟩ : BufTy).Contents (Elt F) → (⟨S_, .f32⟩ : BufTy).Contents (Elt F) → (⟨S15, .f32⟩ : BufTy).Contents (Elt F)),
    binary main_v47 main_v47 main_v48 (mulf : (⟨S15, .f32⟩ : BufTy).Contents (Elt F) → (⟨S15, .f32⟩ : BufTy).Contents (Elt F) → (⟨S15, .f32⟩ : BufTy).Contents (Elt F)),
    nullary main_cst_20 (constant S_ .f32 0x00000000#32),
    binary main_v48 main_cst_20 main_v49 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)),
    nullary main_cst_21 (constant S_ .f32 0x41700000#32),
    binary main_v49 main_cst_21 main_v50 (Host.divf : (⟨S_, .f32⟩ : BufTy).Contents (Elt F) → (⟨S_, .f32⟩ : BufTy).Contents (Elt F) → (⟨S_, .f32⟩ : BufTy).Contents (Elt F)),
    nullary main_c_22 (constantI S_ 32 16#32),
    unary main_c_22 main_v51 (broadcastInDim S2 ![] bcast_S_S2 : (⟨S_, .i32⟩ : BufTy).Contents (Elt F) → (⟨S2, .i32⟩ : BufTy).Contents (Elt F)),
    binary main_c_5 main_v51 main_v52 (addi : (⟨S2, .i32⟩ : BufTy).Contents (Elt F) → (⟨S2, .i32⟩ : BufTy).Contents (Elt F) → (⟨S2, .i32⟩ : BufTy).Contents (Elt F)),
    ternary main_c_6 main_v52 main_c_5 main_v53 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v53 main_v54 (broadcastInDim S2x1 ![0] bcast_S2_S2x1_0 : (⟨S2, .i32⟩ : BufTy).Contents (Elt F) → (⟨S2x1, .i32⟩ : BufTy).Contents (Elt F)),
    binary main_v0 main_v54 main_v55 ((fun x i => Host.gather gather_S16x2_S2x1_S2x2_1_0_n_n_0_1_12 x i) : (⟨S16x2, .f32⟩ : BufTy).Contents (Elt F) → (⟨S2x1, .i32⟩ : BufTy).Contents (Elt F) → (⟨S2x2, .f32⟩ : BufTy).Contents (Elt F)),
    nullary main_c_23 (constantI S_ 32 16#32),
    unary main_c_23 main_v56 (broadcastInDim S2 ![] bcast_S_S2 : (⟨S_, .i32⟩ : BufTy).Contents (Elt F) → (⟨S2, .i32⟩ : BufTy).Contents (Elt F)),
    binary main_c_7 main_v56 main_v57 (addi : (⟨S2, .i32⟩ : BufTy).Contents (Elt F) → (⟨S2, .i32⟩ : BufTy).Contents (Elt F) → (⟨S2, .i32⟩ : BufTy).Contents (Elt F)),
    ternary main_c_8 main_v57 main_c_7 main_v58 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v58 main_v59 (broadcastInDim S2x1 ![0] bcast_S2_S2x1_0 : (⟨S2, .i32⟩ : BufTy).Contents (Elt F) → (⟨S2x1, .i32⟩ : BufTy).Contents (Elt F)),
    binary main_v0 main_v59 main_v60 ((fun x i => Host.gather gather_S16x2_S2x1_S2x2_1_0_n_n_0_1_12 x i) : (⟨S16x2, .f32⟩ : BufTy).Contents (Elt F) → (⟨S2x1, .i32⟩ : BufTy).Contents (Elt F) → (⟨S2x2, .f32⟩ : BufTy).Contents (Elt F)),
    binary main_v55 main_v60 main_v61 (subf : (⟨S2x2, .f32⟩ : BufTy).Contents (Elt F) → (⟨S2x2, .f32⟩ : BufTy).Contents (Elt F) → (⟨S2x2, .f32⟩ : BufTy).Contents (Elt F)),
    TRef.binary (.of main_v61) (.of main_v61) main_call1.v0 mulf,
    TRef.nullary main_call1.cst (constant S_ .f32 0x00000000#32),
    TRef.binary main_call1.v0 main_call1.cst main_call1.v1 (fun x v => Host.reduceAdd x v reducesTo_S2x2_S2_d1 h_S_),
    TRef.unary main_call1.v1 main_call1.v2 (broadcastInDim S2x1 ![0] bcast_S2_S2x1_0),
    TRef.unary main_call1.v2 main_call1.v3 Host.sqrt,
    nullary main_cst_24 (constant S_ .f32 0x2B8CBCCC#32),
    unary main_cst_24 main_v63 (broadcastInDim S2x1 ![] bcast_S_S2x1 : (⟨S_, .f32⟩ : BufTy).Contents (Elt F) → (⟨S2x1, .f32⟩ : BufTy).Contents (Elt F)),
    binary main_v62 main_v63 main_v64 (maximumf : (⟨S2x1, .f32⟩ : BufTy).Contents (Elt F) → (⟨S2x1, .f32⟩ : BufTy).Contents (Elt F) → (⟨S2x1, .f32⟩ : BufTy).Contents (Elt F)),
    unary main_v64 main_v65 (broadcastInDim S2x2 ![0, 1] bcast_S2x1_S2x2_0_1 : (⟨S2x1, .f32⟩ : BufTy).Contents (Elt F) → (⟨S2x2, .f32⟩ : BufTy).Contents (Elt F)),
    binary main_v61 main_v65 main_v66 (Host.divf : (⟨S2x2, .f32⟩ : BufTy).Contents (Elt F) → (⟨S2x2, .f32⟩ : BufTy).Contents (Elt F) → (⟨S2x2, .f32⟩ : BufTy).Contents (Elt F)),
    unary main_v66 main_v67 ((extractStridedSlice S2x1 ![0, 0] · slices_S2x2_S2x1_0_0) : (⟨S2x2, .f32⟩ : BufTy).Contents (Elt F) → (⟨S2x1, .f32⟩ : BufTy).Contents (Elt F)),
    reshape main_v67 main_v68 rfl shapeCasts_S2x1_S2,
    unary main_v68 main_v69 (Host.absf : (⟨S2, .f32⟩ : BufTy).Contents (Elt F) → (⟨S2, .f32⟩ : BufTy).Contents (Elt F)),
    binary main_v69 main_cst main_v70 (subf : (⟨S2, .f32⟩ : BufTy).Contents (Elt F) → (⟨S2, .f32⟩ : BufTy).Contents (Elt F) → (⟨S2, .f32⟩ : BufTy).Contents (Elt F)),
    binary main_v70 main_v70 main_v71 (mulf : (⟨S2, .f32⟩ : BufTy).Contents (Elt F) → (⟨S2, .f32⟩ : BufTy).Contents (Elt F) → (⟨S2, .f32⟩ : BufTy).Contents (Elt F)),
    nullary main_cst_25 (constant S_ .f32 0x00000000#32),
    binary main_v71 main_cst_25 main_v72 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_26 (constant S_ .f32 0x40000000#32),
    binary main_v72 main_cst_26 main_v73 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    nullary main_cst_28 (constant S_ .f32 0x00000000#32),
    nullary main_cst_29 (constant S_ .f32 0x00000000#32),
    nullary main_cst_30 (constant S_ .f32 0x00000000#32),
    unary main_v45 main_v74 (broadcastInDim S1 ![] bcast_S_S1 : (⟨S_, .f32⟩ : BufTy).Contents (Elt F) → (⟨S1, .f32⟩ : BufTy).Contents (Elt F)),
    unary main_cst_27 main_v75 (broadcastInDim S1 ![] bcast_S_S1 : (⟨S_, .f32⟩ : BufTy).Contents (Elt F) → (⟨S1, .f32⟩ : BufTy).Contents (Elt F)),
    unary main_v50 main_v76 (broadcastInDim S1 ![] bcast_S_S1 : (⟨S_, .f32⟩ : BufTy).Contents (Elt F) → (⟨S1, .f32⟩ : BufTy).Contents (Elt F)),
    unary main_cst_28 main_v77 (broadcastInDim S1 ![] bcast_S_S1 : (⟨S_, .f32⟩ : BufTy).Contents (Elt F) → (⟨S1, .f32⟩ : BufTy).Contents (Elt F)),
    unary main_v73 main_v78 (broadcastInDim S1 ![] bcast_S_S1 : (⟨S_, .f32⟩ : BufTy).Contents (Elt F) → (⟨S1, .f32⟩ : BufTy).Contents (Elt F)),
    unary main_cst_29 main_v79 (broadcastInDim S1 ![] bcast_S_S1 : (⟨S_, .f32⟩ : BufTy).Contents (Elt F) → (⟨S1, .f32⟩ : BufTy).Contents (Elt F)),
    unary main_cst_30 main_v80 (broadcastInDim S1 ![] bcast_S_S1 : (⟨S_, .f32⟩ : BufTy).Contents (Elt F) → (⟨S1, .f32⟩ : BufTy).Contents (Elt F)),
    nary ![main_v74, main_v75, main_v76, main_v77, main_v78, main_v79, main_v80] main_v81 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0) ]

set_option maxRecDepth 4096 in
set_option maxHeartbeats 4000000 in
/-- The first window of the program's text is the first stretch (the norm call unfolded, sequencing reassociated). -/
theorem part0_eq (c : Dev nD) : main_part0 (F := F) c = seq opsA := by
  simp only [main_part0, fn_norm.body, seq, bind_assoc, pure_bind]
  rfl

set_option maxRecDepth 4096 in
set_option maxHeartbeats 4000000 in
/-- The second window is the second stretch. -/
theorem part1_eq (c : Dev nD) : main_part1 (F := F) c = seq opsB := by
  simp only [main_part1, fn_norm_0.body, seq, bind_assoc, pure_bind]

/-- The program is the two stretches run one after the other. -/
theorem main_eq (c : Dev nD) : main (F := F) c = seq (opsA ++ opsB) := by
  rw [seq_append]
  show (main_part0 (F := F) c >>= fun _ => main_part1 (F := F) c) = _
  rw [part0_eq, part1_eq]

theorem scopedRefs_eq : (Finset.univ.filter fun b : Ref sig .tc => b.isScoped) = ∅ := by decide
theorem scopedSems_eq : (Finset.univ.filter fun sm : SemLoc sig => sm.isScoped .tc) = ∅ := by decide

/-- Every operation of the first stretch touches TensorCore buffers only. -/
theorem opsA_sub : (opsA : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., unary_bufs_sub .., reshape_bufs_sub .., unary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., ternary_bufs_sub .., nullary_bufs_sub .., unary_bufs_sub .., ternary_bufs_sub .., binary_bufs_sub .., binary_bufs_sub ..⟩

/-- So does every operation of the second. -/
theorem opsB_sub : (opsB : List (HloOp τ sig (Elt F))).Forall fun op => op.bufs ⊆ tcRefs τ sig :=
  ⟨nullary_bufs_sub .., binary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., nullary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., binary_bufs_sub .., nullary_bufs_sub .., binary_bufs_sub .., nullary_bufs_sub .., binary_bufs_sub .., nullary_bufs_sub .., nullary_bufs_sub .., nullary_bufs_sub .., nullary_bufs_sub .., unary_bufs_sub .., unary_bufs_sub .., unary_bufs_sub .., unary_bufs_sub .., unary_bufs_sub .., unary_bufs_sub .., unary_bufs_sub .., nary_bufs_sub ..⟩

end Cert.ReferenceIdeal.RefRun

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.RefBones.lean ====
/-
  The reference's bones, read at an entry.

  A table of joints [16, 2] is gathered at one joint index per bone (the bones' end joints, then their start joints)
  and the two gathered tables are subtracted: entry (i, k) of the result is the k-th coordinate of the vector from
  bone i's start joint to its end joint.  The joint indices are literal tables; the program first passes each through
  the normalisation of negative indices (add 16 where the index is negative — nowhere, the mask being constantly
  false) and stands it up as a one-column matrix, none of which changes an entry.
-/
import proofs.«123490_j45664092291588_2_alg».proof.Proof.Gen.ReferenceIdeal
import proofs.«123490_j45664092291588_2_alg».proof.Proof.Spec
import proofs.«123490_j45664092291588_2_alg».proof.Proof.LibRowScatter
import proofs.«123490_j45664092291588_2_alg».proof.Proof.LibKeepdims
import Idealize.ShloMosaic.Lib.ValueLayout

noncomputable section

open scoped BigOperators

namespace Cert.ReferenceIdeal.RefStages

open Cert.ReferenceIdeal Cert.ReferenceIdeal.Gen Cert.BoneLoss Idealize.ShloMosaic Idealize.ShloMosaic.ValueIdx

/-- An index vector as the gather takes it: negative entries wrapped (none is: the mask is constantly false), then
    stood up as one column. -/
def col15 (C : IVec S15 32) : IVec S15x1 32 :=
  broadcastInDim S15x1 ![0] bcast_S15_S15x1_0
    (select (constantI S15 1 0#1) (addi C (broadcastInDim S15 ![] bcast_S_S15 (constantI S_ 32 16#32))) C)

/-- The same for the two ground bones. -/
def col2 (C : IVec S2 32) : IVec S2x1 32 :=
  broadcastInDim S2x1 ![0] bcast_S2_S2x1_0
    (select (constantI S2 1 0#1) (addi C (broadcastInDim S2 ![] bcast_S_S2 (constantI S_ 32 16#32))) C)

theorem col15_apply (C : IVec S15 32) (e : Fin 15) : col15 C (ix2 e (0 : Fin 1)) = C (ix1 e) := by
  unfold col15
  rw [Keepdims.column_apply]
  rfl

theorem col2_apply (C : IVec S2 32) (e : Fin 2) : col2 C (ix2 e (0 : Fin 1)) = C (ix1 e) := by
  unfold col2
  rw [Keepdims.column_apply]
  rfl

/-- The literal tables of end joints and start joints hold the skeleton's joints. -/
theorem dst_table : ∀ e : Fin 15, min (lit0 (S15.rowMajor (ix1 e))).toInt.toNat (16 - 1) = (dstJ e).val := by decide
theorem src_table : ∀ e : Fin 15, min (lit1 (S15.rowMajor (ix1 e))).toInt.toNat (16 - 1) = (srcJ e).val := by decide
theorem gdst_table : ∀ e : Fin 2, min (lit2 (S2.rowMajor (ix1 e))).toInt.toNat (16 - 1) = (gdstJ e).val := by decide
theorem gsrc_table : ∀ e : Fin 2, min (lit3 (S2.rowMajor (ix1 e))).toInt.toNat (16 - 1) = (gsrcJ e).val := by decide

/-- The fifteen bones of a table of joints: the end joints' rows minus the start joints' rows. -/
def bones15 (y : FVec Ideal S16x2 .f32) : FVec Ideal S15x2 .f32 :=
  subf (Host.gather gather_S16x2_S15x1_S15x2_1_0_n_n_0_1_12 y (col15 fun i => lit0 (S15.rowMajor i)))
    (Host.gather gather_S16x2_S15x1_S15x2_1_0_n_n_0_1_12 y (col15 fun i => lit1 (S15.rowMajor i)))

/-- The two ground bones. -/
def bones2 (y : FVec Ideal S16x2 .f32) : FVec Ideal S2x2 .f32 :=
  subf (Host.gather gather_S16x2_S2x1_S2x2_1_0_n_n_0_1_12 y (col2 fun i => lit2 (S2.rowMajor i)))
    (Host.gather gather_S16x2_S2x1_S2x2_1_0_n_n_0_1_12 y (col2 fun i => lit3 (S2.rowMajor i)))

theorem gather15_apply (y : FVec Ideal S16x2 .f32) (C : IVec S15 32) (J : Fin 15 → Fin 16)
    (hC : ∀ e : Fin 15, min (C (ix1 e)).toInt.toNat (16 - 1) = (J e).val) (e : Fin 15) (k : Fin 2) :
    Host.gather gather_S16x2_S15x1_S15x2_1_0_n_n_0_1_12 y (col15 C) (ix2 e k) = y (ix2 (J e) k) := by
  refine (RowScatter.gather_rows_apply (N := 16) (E := 15) (C := 2) (by decide)
    gather_S16x2_S15x1_S15x2_1_0_n_n_0_1_12_wf y (col15 C) e k).trans ?_
  refine congrArg y (congrArg (fun r => ix2 r k) (Fin.ext ?_))
  show min ((col15 C) (ix2 e (0 : Fin 1))).toInt.toNat (16 - 1) = (J e).val
  rw [col15_apply]; exact hC e

theorem gather2_apply (y : FVec Ideal S16x2 .f32) (C : IVec S2 32) (J : Fin 2 → Fin 16)
    (hC : ∀ e : Fin 2, min (C (ix1 e)).toInt.toNat (16 - 1) = (J e).val) (e : Fin 2) (k : Fin 2) :
    Host.gather gather_S16x2_S2x1_S2x2_1_0_n_n_0_1_12 y (col2 C) (ix2 e k) = y (ix2 (J e) k) := by
  refine (RowScatter.gather_rows_apply (N := 16) (E := 2) (C := 2) (by decide)
    gather_S16x2_S2x1_S2x2_1_0_n_n_0_1_12_wf y (col2 C) e k).trans ?_
  refine congrArg y (congrArg (fun r => ix2 r k) (Fin.ext ?_))
  show min ((col2 C) (ix2 e (0 : Fin 1))).toInt.toNat (16 - 1) = (J e).val
  rw [col2_apply]; exact hC e

/-- Bone i of a table of joints is the vector from its start joint to its end joint. -/
theorem bones15_apply (y : FVec Ideal S16x2 .f32) (i : Fin 15) (k : Fin 2) :
    bones15 y (ix2 i k) = bone y (dstJ i) (srcJ i) k := by
  unfold bones15 bone
  rw [subf_apply, gather15_apply y (fun i => lit0 (S15.rowMajor i)) dstJ dst_table,
    gather15_apply y (fun i => lit1 (S15.rowMajor i)) srcJ src_table]

theorem bones2_apply (y : FVec Ideal S16x2 .f32) (j : Fin 2) (k : Fin 2) :
    bones2 y (ix2 j k) = bone y (gdstJ j) (gsrcJ j) k := by
  unfold bones2 bone
  rw [subf_apply, gather2_apply y (fun i => lit2 (S2.rowMajor i)) gdstJ gdst_table,
    gather2_apply y (fun i => lit3 (S2.rowMajor i)) gsrcJ gsrc_table]

end Cert.ReferenceIdeal.RefStages

end
-- ==== Proof.RefDefs.lean ====
/-
  The reference's stages as functions of its argument arrays.

  From a table of bones [15, 2] (or [2, 2]): the floored row lengths as a column, the rows divided by them, and the
  rows turned a quarter.  From the predicted joints and the two leg vectors: the predicted bones with rows 9 and 12
  overwritten.  From a [15, 2] table of products: the mean over the rows of the squared row sums.  From the predicted
  joints: the mean over the two ground bones of the squared distance of |first coordinate| from 1.  And the seven-entry
  result assembled from three scalars.  Each is spelt with the reference's own operations, so that the reference's
  result is these functions composed.
-/
import proofs.«123490_j45664092291588_2_alg».proof.Proof.RefBones

noncomputable section

open scoped BigOperators

namespace Cert.ReferenceIdeal.RefStages

open Cert.ReferenceIdeal Cert.ReferenceIdeal.Gen Cert.BoneLoss Idealize.ShloMosaic Idealize.ShloMosaic.ValueIdx

/-- The scalar zero the sums start from. -/
def zeroS : FVec Ideal S_ .f32 := constant (F := Ideal) S_ .f32 0x00000000#32

/-- The floored lengths of the rows of a [15, 2] table, as a column. -/
def lens15 (b : FVec Ideal S15x2 .f32) : FVec Ideal S15x1 .f32 :=
  maximumf
    (Host.sqrt (broadcastInDim S15x1 ![0] bcast_S15_S15x1_0
      (Host.reduceAdd (mulf b b) (constant (F := Ideal) S_ .f32 0x00000000#32) reducesTo_S15x2_S15_d1 h_S_)))
    (broadcastInDim S15x1 ![] bcast_S_S15x1 (constant (F := Ideal) S_ .f32 0x2B8CBCCC#32))

/-- The rows divided by their floored lengths. -/
def dirs15 (b : FVec Ideal S15x2 .f32) : FVec Ideal S15x2 .f32 :=
  Host.divf b (broadcastInDim S15x2 ![0, 1] bcast_S15x1_S15x2_0_1 (lens15 b))

/-- The rows turned a quarter: (x, y) ↦ (-y, x). -/
def normals15 (t : FVec Ideal S15x2 .f32) : FVec Ideal S15x2 .f32 :=
  concatenate S15x2 1
    [⟨S15x1, broadcastInDim S15x1 ![0] bcast_S15_S15x1_0
        (Host.negf (shapeCast S15 (extractStridedSlice S15x1 ![0, 1] t slices_S15x2_S15x1_0_1) shapeCasts_S15x1_S15))⟩,
     ⟨S15x1, broadcastInDim S15x1 ![0] bcast_S15_S15x1_0
        (shapeCast S15 (extractStridedSlice S15x1 ![0, 0] t slices_S15x2_S15x1_0_0) shapeCasts_S15x1_S15)⟩]
    concatenates_S15x1_S15x1_S15x2_d1

/-- One row index as the scatter takes it. -/
def row1 (w : BitVec 32) : IVec S1 32 := broadcastInDim S1 ![] bcast_S_S1 (constantI S_ 32 w)

/-- The predicted bones: the joints' bones with row 9 overwritten by the right leg and row 12 by the left. -/
def pred15 (yp : FVec Ideal S16x2 .f32) (rl ll : FVec Ideal S2 .f32) : FVec Ideal S15x2 .f32 :=
  Host.scatter scatter_S15x2_S1_S2_0_0_0_0 (fun _ b => b)
    (Host.scatter scatter_S15x2_S1_S2_0_0_0_0 (fun _ b => b) (bones15 yp) (row1 9#32) rl) (row1 12#32) ll

/-- The mean over the fifteen rows of the squared row sums of a [15, 2] table. -/
def meanSq15 (p : FVec Ideal S15x2 .f32) : FVec Ideal S_ .f32 :=
  Host.divf
    (Host.reduceAdd
      (mulf (Host.reduceAdd p (constant (F := Ideal) S_ .f32 0x00000000#32) reducesTo_S15x2_S15_d1 h_S_)
        (Host.reduceAdd p (constant (F := Ideal) S_ .f32 0x00000000#32) reducesTo_S15x2_S15_d1 h_S_))
      (constant (F := Ideal) S_ .f32 0x00000000#32) reducesTo_S15_S_d0 h_S_)
    (constant (F := Ideal) S_ .f32 0x41700000#32)

/-- The floored lengths of the two ground bones, as a column. -/
def lens2 (g : FVec Ideal S2x2 .f32) : FVec Ideal S2x1 .f32 :=
  maximumf
    (Host.sqrt (broadcastInDim S2x1 ![0] bcast_S2_S2x1_0
      (Host.reduceAdd (mulf g g) (constant (F := Ideal) S_ .f32 0x00000000#32) reducesTo_S2x2_S2_d1 h_S_)))
    (broadcastInDim S2x1 ![] bcast_S_S2x1 (constant (F := Ideal) S_ .f32 0x2B8CBCCC#32))

/-- The ground bones divided by their floored lengths. -/
def dirs2 (g : FVec Ideal S2x2 .f32) : FVec Ideal S2x2 .f32 :=
  Host.divf g (broadcastInDim S2x2 ![0, 1] bcast_S2x1_S2x2_0_1 (lens2 g))

/-- The mean over the two ground bones of (|first coordinate of the unit bone| - 1)². -/
def groundMean (yp : FVec Ideal S16x2 .f32) : FVec Ideal S_ .f32 :=
  Host.divf
    (Host.reduceAdd
      (mulf
        (subf (Host.absf (shapeCast S2 (extractStridedSlice S2x1 ![0, 0] (dirs2 (bones2 yp)) slices_S2x2_S2x1_0_0) shapeCasts_S2x1_S2))
          (constant (F := Ideal) S2 .f32 0x3F800000#32))
        (subf (Host.absf (shapeCast S2 (extractStridedSlice S2x1 ![0, 0] (dirs2 (bones2 yp)) slices_S2x2_S2x1_0_0) shapeCasts_S2x1_S2))
          (constant (F := Ideal) S2 .f32 0x3F800000#32)))
      (constant (F := Ideal) S_ .f32 0x00000000#32) reducesTo_S2_S_d0 h_S_)
    (constant (F := Ideal) S_ .f32 0x40000000#32)

/-- A scalar as a one-entry vector. -/
def one1 (a : FVec Ideal S_ .f32) : FVec Ideal S1 .f32 := broadcastInDim S1 ![] bcast_S_S1 a

/-- The result vector: three scalars at positions 0, 2, 4, zeros elsewhere. -/
def assemble (a b c : FVec Ideal S_ .f32) : FVec Ideal S7 .f32 :=
  concatenate S7 0
    [⟨S1, one1 a⟩, ⟨S1, one1 zeroS⟩, ⟨S1, one1 b⟩, ⟨S1, one1 zeroS⟩, ⟨S1, one1 c⟩, ⟨S1, one1 zeroS⟩, ⟨S1, one1 zeroS⟩]
    concatenates_S1_S1_S1_S1_S1_S1_S1_S7_d0

/-- The first two columns of the predicted joints, in the reference's spelling. -/
def cols2 (y3 : FVec Ideal S16x3 .f32) : FVec Ideal S16x2 .f32 :=
  extractStridedSlice S16x2 ![0, 0] y3 slices_S16x3_S16x2_0_0

/-- The reference's result as a function of its four argument arrays. -/
def refOut (yd : FVec Ideal S16x2 .f32) (y3 : FVec Ideal S16x3 .f32) (rl ll : FVec Ideal S2 .f32) : FVec Ideal S7 .f32 :=
  assemble
    (meanSq15 (mulf (subf (pred15 (cols2 y3) rl ll) (bones15 yd)) (dirs15 (bones15 yd))))
    (meanSq15 (mulf (subf (pred15 (cols2 y3) rl ll) (bones15 yd)) (normals15 (dirs15 (bones15 yd)))))
    (groundMean (cols2 y3))

end Cert.ReferenceIdeal.RefStages

end
-- ==== Proof.LibSumIdx1.lean ====
/-
  A sum over the index set of a rank-1 shape is the sum over its one coordinate.
-/
import Idealize.ShloMosaic.Lib.ValueIdx

namespace Idealize.ShloMosaic.ValueIdx

open scoped BigOperators

/-- The indices of a vector of length `n` are its coordinates. -/
def idxEquiv1 {n : Nat} : (⟨1, ![n]⟩ : Shape).Idx ≃ Fin n where
  toFun j := j 0
  invFun i := ix1 i
  left_inv j := (eq_ix1 j).symm
  right_inv _ := rfl

/-- A sum over a rank-1 index set, coordinate by coordinate. -/
theorem sum_idx1 {M : Type*} [AddCommMonoid M] {n : Nat} (f : (⟨1, ![n]⟩ : Shape).Idx → M) :
    ∑ j, f j = ∑ i : Fin n, f (ix1 i) :=
  Fintype.sum_equiv idxEquiv1 f (fun i => f (ix1 i)) fun j => congrArg f (eq_ix1 j)

end Idealize.ShloMosaic.ValueIdx
-- ==== Proof.LibHostForms.lean ====
/-
  Host layout forms read at an entry, for any extents and entry type.

  * a one-column matrix [a, 1] cast to the vector [a] reads at i the column's entry (i, 0) (cast_column_apply);
  * a one-column matrix [a, 1] spread by broadcast_in_dim over the columns of [a, b] reads at (i, j) the column's
    entry (i, 0) (spread_column_apply);
  * a scalar spread by broadcast_in_dim over any shape reads the scalar everywhere (spread_scalar_apply);
  * the host's sum of a vector [n] into a scalar is, on the extended reals, the initial value plus the sum of the n
    entries (reduceAdd_vec_apply);
  * seven one-entry vectors joined end to end read at position q the q-th vector's entry (join7_apply).
-/
import Idealize.ShloMosaic.PureOps.Ideal.Laws
import Idealize.ShloMosaic.Lib.ValueIdx
import Idealize.ShloMosaic.Lib.Pipeline.Value
import proofs.«123490_j45664092291588_2_alg».proof.Proof.LibSumIdx1

noncomputable section

open scoped BigOperators

namespace Idealize.ShloMosaic.HostForms

open Idealize.ShloMosaic Idealize.ShloMosaic.ValueIdx

variable {α : Type}

/-- An [a, 1] column cast to [a] reads, at i, the column's entry (i, 0). -/
theorem cast_column_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a, 1] column spread over the columns of [a, b] reads, at (i, j), the column's entry (i, 0). -/
theorem spread_column_apply {a b : ℕ} (h : (⟨2, ![a, 1]⟩ : Shape).BroadcastsInDim ⟨2, ![a, b]⟩ ![0, 1])
    (v : (⟨2, ![a, 1]⟩ : Shape).Idx → α) (i : Fin a) (j : Fin b) :
    broadcastInDim (⟨2, ![a, b]⟩ : Shape) ![0, 1] h v (ix2 i j) = v (ix2 i (0 : Fin 1)) := by
  refine broadcastInDim_apply _ h v (ix2 i j) (ix2 i (0 : Fin 1)) (fun x => ?_)
  match x with
  | ⟨0, _⟩ =>
    show i.val = if a = 1 then 0 else i.val
    split_ifs with h
    · have := i.isLt; omega
    · rfl
  | ⟨1, _⟩ =>
    show 0 = if (1 : Nat) = 1 then 0 else j.val
    rw [if_pos rfl]

/-- A scalar spread over any shape reads the scalar everywhere. -/
theorem spread_scalar_apply {t : Shape} (h : (⟨0, ![]⟩ : Shape).BroadcastsInDim t ![]) (v : (⟨0, ![]⟩ : Shape).Idx → α)
    (j : t.Idx) : broadcastInDim t ![] h v j = v ix0 :=
  broadcastInDim_apply _ h v j ix0 (fun x => x.elim0)

/-- The host's sum of a vector into a scalar: the initial value plus the sum of the entries. -/
theorem reduceAdd_vec_apply {n : ℕ} (x : FVec Ideal ⟨1, ![n]⟩ .f32) {u : Shape} (init : u.Idx → EReal)
    (h' : (⟨1, ![n]⟩ : Shape).ReducesTo [0] ⟨0, ![]⟩) (hu : 0 < u.numel) (j : (⟨0, ![]⟩ : Shape).Idx) :
    Host.reduceAdd (F := Ideal) (φ := .f32) x init h' hu j = init (Shape.Idx.first hu) + ∑ d : Fin n, x (ix1 d) := by
  show Ideal.hostReduceAdd h' x (init (Shape.Idx.first hu)) j = _
  rw [Ideal.hostReduceAdd_total h' (fun b => b.elim0), sum_idx1]

/-- Seven one-entry vectors joined end to end: position q reads the q-th vector. -/
theorem join7_apply (u0 u1 u2 u3 u4 u5 u6 : (⟨1, ![1]⟩ : Shape).Idx → α)
    (h : Shape.Concatenates [(⟨1, ![1]⟩ : Shape), ⟨1, ![1]⟩, ⟨1, ![1]⟩, ⟨1, ![1]⟩, ⟨1, ![1]⟩, ⟨1, ![1]⟩, ⟨1, ![1]⟩] (⟨1, ![7]⟩ : Shape) 0)
    (q : Fin 7) :
    concatenate (⟨1, ![7]⟩ : Shape) 0
      [⟨(⟨1, ![1]⟩ : Shape), u0⟩, ⟨(⟨1, ![1]⟩ : Shape), u1⟩, ⟨(⟨1, ![1]⟩ : Shape), u2⟩, ⟨(⟨1, ![1]⟩ : Shape), u3⟩,
       ⟨(⟨1, ![1]⟩ : Shape), u4⟩, ⟨(⟨1, ![1]⟩ : Shape), u5⟩, ⟨(⟨1, ![1]⟩ : Shape), u6⟩] h (ix1 q)
      = (![u0, u1, u2, u3, u4, u5, u6] q) (ix1 (0 : Fin 1)) := by
  match q with
  | ⟨0, hq⟩ =>
    exact concatenate_apply_piece 0
      [⟨(⟨1, ![1]⟩ : Shape), u0⟩, ⟨(⟨1, ![1]⟩ : Shape), u1⟩, ⟨(⟨1, ![1]⟩ : Shape), u2⟩, ⟨(⟨1, ![1]⟩ : Shape), u3⟩, ⟨(⟨1, ![1]⟩ : Shape), u4⟩, ⟨(⟨1, ![1]⟩ : Shape), u5⟩, ⟨(⟨1, ![1]⟩ : Shape), u6⟩] h (ix1 (⟨0, hq⟩ : Fin 7)) 0 (by simp) _ u0 rfl rfl 0 rfl (ix1 (0 : Fin 1))
      (fun b hb => absurd (Subsingleton.elim _ _) hb) rfl
  | ⟨1, hq⟩ =>
    exact concatenate_apply_piece 0
      [⟨(⟨1, ![1]⟩ : Shape), u0⟩, ⟨(⟨1, ![1]⟩ : Shape), u1⟩, ⟨(⟨1, ![1]⟩ : Shape), u2⟩, ⟨(⟨1, ![1]⟩ : Shape), u3⟩, ⟨(⟨1, ![1]⟩ : Shape), u4⟩, ⟨(⟨1, ![1]⟩ : Shape), u5⟩, ⟨(⟨1, ![1]⟩ : Shape), u6⟩] h (ix1 (⟨1, hq⟩ : Fin 7)) 1 (by simp) _ u1 rfl rfl 1 (by simp) (ix1 (0 : Fin 1))
      (fun b hb => absurd (Subsingleton.elim _ _) hb) rfl
  | ⟨2, hq⟩ =>
    exact concatenate_apply_piece 0
      [⟨(⟨1, ![1]⟩ : Shape), u0⟩, ⟨(⟨1, ![1]⟩ : Shape), u1⟩, ⟨(⟨1, ![1]⟩ : Shape), u2⟩, ⟨(⟨1, ![1]⟩ : Shape), u3⟩, ⟨(⟨1, ![1]⟩ : Shape), u4⟩, ⟨(⟨1, ![1]⟩ : Shape), u5⟩, ⟨(⟨1, ![1]⟩ : Shape), u6⟩] h (ix1 (⟨2, hq⟩ : Fin 7)) 2 (by simp) _ u2 rfl rfl 2 (by simp) (ix1 (0 : Fin 1))
      (fun b hb => absurd (Subsingleton.elim _ _) hb) rfl
  | ⟨3, hq⟩ =>
    exact concatenate_apply_piece 0
      [⟨(⟨1, ![1]⟩ : Shape), u0⟩, ⟨(⟨1, ![1]⟩ : Shape), u1⟩, ⟨(⟨1, ![1]⟩ : Shape), u2⟩, ⟨(⟨1, ![1]⟩ : Shape), u3⟩, ⟨(⟨1, ![1]⟩ : Shape), u4⟩, ⟨(⟨1, ![1]⟩ : Shape), u5⟩, ⟨(⟨1, ![1]⟩ : Shape), u6⟩] h (ix1 (⟨3, hq⟩ : Fin 7)) 3 (by simp) _ u3 rfl rfl 3 (by simp) (ix1 (0 : Fin 1))
      (fun b hb => absurd (Subsingleton.elim _ _) hb) rfl
  | ⟨4, hq⟩ =>
    exact concatenate_apply_piece 0
      [⟨(⟨1, ![1]⟩ : Shape), u0⟩, ⟨(⟨1, ![1]⟩ : Shape), u1⟩, ⟨(⟨1, ![1]⟩ : Shape), u2⟩, ⟨(⟨1, ![1]⟩ : Shape), u3⟩, ⟨(⟨1, ![1]⟩ : Shape), u4⟩, ⟨(⟨1, ![1]⟩ : Shape), u5⟩, ⟨(⟨1, ![1]⟩ : Shape), u6⟩] h (ix1 (⟨4, hq⟩ : Fin 7)) 4 (by simp) _ u4 rfl rfl 4 (by simp) (ix1 (0 : Fin 1))
      (fun b hb => absurd (Subsingleton.elim _ _) hb) rfl
  | ⟨5, hq⟩ =>
    exact concatenate_apply_piece 0
      [⟨(⟨1, ![1]⟩ : Shape), u0⟩, ⟨(⟨1, ![1]⟩ : Shape), u1⟩, ⟨(⟨1, ![1]⟩ : Shape), u2⟩, ⟨(⟨1, ![1]⟩ : Shape), u3⟩, ⟨(⟨1, ![1]⟩ : Shape), u4⟩, ⟨(⟨1, ![1]⟩ : Shape), u5⟩, ⟨(⟨1, ![1]⟩ : Shape), u6⟩] h (ix1 (⟨5, hq⟩ : Fin 7)) 5 (by simp) _ u5 rfl rfl 5 (by simp) (ix1 (0 : Fin 1))
      (fun b hb => absurd (Subsingleton.elim _ _) hb) rfl
  | ⟨6, hq⟩ =>
    exact concatenate_apply_piece 0
      [⟨(⟨1, ![1]⟩ : Shape), u0⟩, ⟨(⟨1, ![1]⟩ : Shape), u1⟩, ⟨(⟨1, ![1]⟩ : Shape), u2⟩, ⟨(⟨1, ![1]⟩ : Shape), u3⟩, ⟨(⟨1, ![1]⟩ : Shape), u4⟩, ⟨(⟨1, ![1]⟩ : Shape), u5⟩, ⟨(⟨1, ![1]⟩ : Shape), u6⟩] h (ix1 (⟨6, hq⟩ : Fin 7)) 6 (by simp) _ u6 rfl rfl 6 (by simp) (ix1 (0 : Fin 1))
      (fun b hb => absurd (Subsingleton.elim _ _) hb) rfl

end Idealize.ShloMosaic.HostForms

end
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.RefRead.lean ====
/-
  The reference's stages read at an entry, and composed: they are the skeleton loss.

  Row i of the floored lengths is the floored length of row i; row i of the directions is row i divided by it; the
  quarter turn swaps the two coordinates and negates the new first; overwriting rows 9 and 12 of the bones gives the
  predicted bones; the mean of squared row sums is the mean over the fifteen bones; the ground mean is the ground loss;
  and the seven entries of the assembled vector are the three losses at positions 0, 2, 4 and zero elsewhere.
-/
import proofs.«123490_j45664092291588_2_alg».proof.Proof.RefDefs
import proofs.«123490_j45664092291588_2_alg».proof.Proof.LibHostForms
import proofs.«123490_j45664092291588_2_alg».proof.Proof.LibHostRows
import proofs.«123490_j45664092291588_2_alg».proof.Proof.LibKeepdims
import proofs.«123490_j45664092291588_2_alg».proof.Proof.LibJoinCols
import proofs.«123490_j45664092291588_2_alg».proof.Proof.LibSumIdx1
import Idealize.ShloMosaic.Lib.ValueLayout

noncomputable section

open scoped BigOperators

namespace Cert.ReferenceIdeal.RefStages

open Cert.ReferenceIdeal Cert.ReferenceIdeal.Gen Cert.BoneLoss Idealize.ShloMosaic Idealize.ShloMosaic.ValueIdx

/-! ## The host's entrywise operations on the extended reals -/

theorem hsqrt_apply {s : Shape} (X : FVec Ideal s .f32) (j : s.Idx) : Host.sqrt X j = Ideal.sqrt (X j) := rfl
theorem hdivf_apply {s : Shape} (a b : FVec Ideal s .f32) (j : s.Idx) : Host.divf a b j = Ideal.div (a j) (b j) := rfl
theorem hnegf_apply {s : Shape} (a : FVec Ideal s .f32) (j : s.Idx) : Host.negf a j = -(a j) := rfl
theorem habsf_apply {s : Shape} (a : FVec Ideal s .f32) (j : s.Idx) : Host.absf a j = max (a j) (-(a j)) := rfl

/-- A coordinate of the plane other than the first is the second. -/
theorem eq_one_of_ne_zero {k : Fin 2} (hk : k ≠ 0) : k = 1 :=
  Fin.ext (by have := k.isLt; have : k.val ≠ 0 := fun h => hk (Fin.ext h); omega)

/-! ## Lengths, directions, normals -/

theorem lens15_apply (b : FVec Ideal S15x2 .f32) (i : Fin 15) :
    lens15 b (ix2 i (0 : Fin 1)) = len (fun k => b (ix2 i k)) := by
  unfold lens15 len epsW
  rw [maximumf_apply, hsqrt_apply, Keepdims.column_apply,
    HostRows.reduceAdd_rows_apply (mulf b b) _ reducesTo_S15x2_S15_d1 (by decide) h_S_ i,
    constant_apply, Ideal.ofBits_zero_f32, zero_add]
  rfl

theorem dirs15_apply (b : FVec Ideal S15x2 .f32) (i : Fin 15) (k : Fin 2) :
    dirs15 b (ix2 i k) = dir (fun k => b (ix2 i k)) k := by
  unfold dirs15 dir
  rw [hdivf_apply, HostForms.spread_column_apply, lens15_apply]

theorem lens2_apply (g : FVec Ideal S2x2 .f32) (j : Fin 2) :
    lens2 g (ix2 j (0 : Fin 1)) = len (fun k => g (ix2 j k)) := by
  unfold lens2 len epsW
  rw [maximumf_apply, hsqrt_apply, Keepdims.column_apply,
    HostRows.reduceAdd_rows_apply (mulf g g) _ reducesTo_S2x2_S2_d1 (by decide) h_S_ j,
    constant_apply, Ideal.ofBits_zero_f32, zero_add]
  rfl

theorem dirs2_apply (g : FVec Ideal S2x2 .f32) (j : Fin 2) (k : Fin 2) :
    dirs2 g (ix2 j k) = dir (fun k => g (ix2 j k)) k := by
  unfold dirs2 dir
  rw [hdivf_apply, HostForms.spread_column_apply, lens2_apply]

theorem normals15_apply (t : FVec Ideal S15x2 .f32) (i : Fin 15) (k : Fin 2) :
    normals15 t (ix2 i k) = perp (fun k => t (ix2 i k)) k := by
  unfold normals15 perp
  by_cases hk : k = 0
  · subst hk
    rw [if_pos rfl, JoinCols.pair_left _ _ _ i (0 : Fin 1) (0 : Fin 2) rfl, Keepdims.column_apply, hnegf_apply,
      HostForms.cast_column_apply, slice2_axis1_apply 1 t _ i (0 : Fin 1) (1 : Fin 2) rfl]
  · obtain rfl := eq_one_of_ne_zero hk
    rw [if_neg (by decide), JoinCols.pair_right (w1 := 1) _ _ _ i (0 : Fin 1) (1 : Fin 2) rfl, Keepdims.column_apply,
      HostForms.cast_column_apply, slice2_axis1_apply 0 t _ i (0 : Fin 1) (0 : Fin 2) rfl]

/-! ## Overwriting one row -/

theorem pos0 : S2.rowMajor.symm ⟨0, by decide⟩ = ix1 (0 : Fin 2) := by decide
theorem pos1 : S2.rowMajor.symm ⟨1, by decide⟩ = ix1 (1 : Fin 2) := by decide

/-- A two-entry update written at row r: the table with that row replaced. -/
theorem overwrite_fun {α : Type} (r : Fin 15) (idx : IVec S1 32)
    (h0 : scatter_S15x2_S1_S2_0_0_0_0.resultIdx? (ix1 (0 : Fin 2)) idx = some (ix2 r (0 : Fin 2)))
    (h1 : scatter_S15x2_S1_S2_0_0_0_0.resultIdx? (ix1 (1 : Fin 2)) idx = some (ix2 r (1 : Fin 2)))
    (x : S15x2.Idx → α) (u : S2.Idx → α) :
    Host.scatter scatter_S15x2_S1_S2_0_0_0_0 (fun _ b => b) x idx u
      = fun i' => if i' = ix2 r (1 : Fin 2) then u (ix1 (1 : Fin 2))
          else if i' = ix2 r (0 : Fin 2) then u (ix1 (0 : Fin 2)) else x i' := by
  unfold Host.scatter
  rw [show (List.finRange S2.numel) = [⟨0, by decide⟩, ⟨1, by decide⟩] from by decide]
  simp only [List.foldl, pos0, pos1, h0, h1]

theorem overwrite_apply {α : Type} (r : Fin 15) (idx : IVec S1 32)
    (h0 : scatter_S15x2_S1_S2_0_0_0_0.resultIdx? (ix1 (0 : Fin 2)) idx = some (ix2 r (0 : Fin 2)))
    (h1 : scatter_S15x2_S1_S2_0_0_0_0.resultIdx? (ix1 (1 : Fin 2)) idx = some (ix2 r (1 : Fin 2)))
    (x : S15x2.Idx → α) (u : S2.Idx → α) (i : Fin 15) (k : Fin 2) :
    Host.scatter scatter_S15x2_S1_S2_0_0_0_0 (fun _ b => b) x idx u (ix2 i k)
      = if i = r then u (ix1 k) else x (ix2 i k) := by
  rw [overwrite_fun r idx h0 h1]
  by_cases hi : i = r
  · subst hi
    rw [if_pos rfl]
    by_cases hk : k = 0
    · subst hk
      show (if ix2 i (0 : Fin 2) = ix2 i (1 : Fin 2) then _ else if ix2 i (0 : Fin 2) = ix2 i (0 : Fin 2) then _ else _) = _
      rw [if_neg (fun h => absurd (RowScatter.ix2_inj.mp h).2 (by decide)), if_pos rfl]
    · obtain rfl := eq_one_of_ne_zero hk
      show (if ix2 i (1 : Fin 2) = ix2 i (1 : Fin 2) then _ else _) = _
      rw [if_pos rfl]
  · show (if ix2 i k = ix2 r (1 : Fin 2) then _ else if ix2 i k = ix2 r (0 : Fin 2) then _ else _) = _
    rw [if_neg hi, if_neg (fun h => hi (RowScatter.ix2_inj.mp h).1), if_neg (fun h => hi (RowScatter.ix2_inj.mp h).1)]

theorem at9_0 : scatter_S15x2_S1_S2_0_0_0_0.resultIdx? (ix1 (0 : Fin 2)) (row1 9#32) = some (ix2 (9 : Fin 15) (0 : Fin 2)) := by decide
theorem at9_1 : scatter_S15x2_S1_S2_0_0_0_0.resultIdx? (ix1 (1 : Fin 2)) (row1 9#32) = some (ix2 (9 : Fin 15) (1 : Fin 2)) := by decide
theorem at12_0 : scatter_S15x2_S1_S2_0_0_0_0.resultIdx? (ix1 (0 : Fin 2)) (row1 12#32) = some (ix2 (12 : Fin 15) (0 : Fin 2)) := by decide
theorem at12_1 : scatter_S15x2_S1_S2_0_0_0_0.resultIdx? (ix1 (1 : Fin 2)) (row1 12#32) = some (ix2 (12 : Fin 15) (1 : Fin 2)) := by decide

/-- The predicted bones: bones 9 and 12 are the leg vectors, the others the joints' bones. -/
theorem pred15_apply (yp : FVec Ideal S16x2 .f32) (rl ll : FVec Ideal S2 .f32) (i : Fin 15) (k : Fin 2) :
    pred15 yp rl ll (ix2 i k) = predBone yp (pair rl) (pair ll) i k := by
  unfold pred15 predBone pair
  rw [overwrite_apply 12 (row1 12#32) at12_0 at12_1, overwrite_apply 9 (row1 9#32) at9_0 at9_1, bones15_apply]
  by_cases h9 : i = 9
  · subst h9
    rw [if_neg (by decide), if_pos rfl, if_pos rfl]
  · rw [if_neg h9, if_neg h9]

/-! ## The means -/

theorem meanSq15_apply (p : FVec Ideal S15x2 .f32) :
    meanSq15 p ix0 = Ideal.div (∑ i : Fin 15, (∑ k : Fin 2, p (ix2 i k)) * (∑ k : Fin 2, p (ix2 i k))) fifteenW := by
  unfold meanSq15 fifteenW
  rw [hdivf_apply, HostForms.reduceAdd_vec_apply _ _ reducesTo_S15_S_d0 h_S_ ix0]
  simp only [constant_apply, Ideal.ofBits_zero_f32, zero_add, mulf_apply,
    HostRows.reduceAdd_rows_apply p _ reducesTo_S15x2_S15_d1 (by decide) h_S_]

theorem groundMean_apply (yp : FVec Ideal S16x2 .f32) : groundMean yp ix0 = groundLoss yp := by
  unfold groundMean groundLoss twoW
  rw [hdivf_apply, HostForms.reduceAdd_vec_apply _ _ reducesTo_S2_S_d0 h_S_ ix0]
  simp only [constant_apply, Ideal.ofBits_zero_f32, zero_add, mulf_apply, subf_apply, habsf_apply,
    HostForms.cast_column_apply]
  refine congrArg (fun s => Ideal.div s _) (Finset.sum_congr rfl fun j _ => ?_)
  have e : extractStridedSlice S2x1 ![0, 0] (dirs2 (bones2 yp)) slices_S2x2_S2x1_0_0 (ix2 j (0 : Fin 1))
      = dir (groundBone yp j) 0 := by
    rw [slice2_axis1_apply 0 (dirs2 (bones2 yp)) _ j (0 : Fin 1) (0 : Fin 2) rfl, dirs2_apply]
    simp only [bones2_apply]
    rfl
  rw [e]
  rfl

/-! ## The rows of the two products -/

theorem tanRow (yd : FVec Ideal S16x2 .f32) (y3 : FVec Ideal S16x3 .f32) (rl ll : FVec Ideal S2 .f32) (i : Fin 15) :
    ∑ k : Fin 2, mulf (subf (pred15 (cols2 y3) rl ll) (bones15 yd)) (dirs15 (bones15 yd)) (ix2 i k)
      = tanTerm yd (firstTwo y3) (pair rl) (pair ll) i := by
  unfold tanTerm dot resid dataBone
  refine Finset.sum_congr rfl fun k _ => ?_
  rw [mulf_apply, subf_apply, pred15_apply, bones15_apply, dirs15_apply]
  simp only [bones15_apply]
  rfl

theorem parRow (yd : FVec Ideal S16x2 .f32) (y3 : FVec Ideal S16x3 .f32) (rl ll : FVec Ideal S2 .f32) (i : Fin 15) :
    ∑ k : Fin 2, mulf (subf (pred15 (cols2 y3) rl ll) (bones15 yd)) (normals15 (dirs15 (bones15 yd))) (ix2 i k)
      = parTerm yd (firstTwo y3) (pair rl) (pair ll) i := by
  unfold parTerm dot resid dataBone
  refine Finset.sum_congr rfl fun k _ => ?_
  rw [mulf_apply, subf_apply, pred15_apply, bones15_apply, normals15_apply]
  simp only [dirs15_apply, bones15_apply]
  rfl

/-! ## The result -/

theorem one1_apply (a : FVec Ideal S_ .f32) : one1 a (ix1 (0 : Fin 1)) = a ix0 := by
  unfold one1
  rw [HostForms.spread_scalar_apply]

theorem zero1_apply : one1 zeroS (ix1 (0 : Fin 1)) = 0 := by
  rw [one1_apply]
  exact Ideal.ofBits_zero_f32

/-- The reference's stages composed are the skeleton loss of its arguments. -/
theorem refOut_eq (yd : FVec Ideal S16x2 .f32) (y3 : FVec Ideal S16x3 .f32) (rl ll : FVec Ideal S2 .f32) :
    refOut yd y3 rl ll = lossVec yd (firstTwo y3) (pair rl) (pair ll) := by
  funext q
  obtain ⟨q0, rfl⟩ : ∃ q0 : Fin 7, q = ix1 q0 := ⟨q 0, eq_ix1 q⟩
  unfold refOut assemble lossVec
  rw [HostForms.join7_apply]
  show _ = loss yd (firstTwo y3) (pair rl) (pair ll) q0
  unfold loss
  fin_cases q0
  · show one1 (meanSq15 _) (ix1 (0 : Fin 1)) = _
    rw [if_pos (by decide), one1_apply, meanSq15_apply]
    unfold tanLoss
    simp only [tanRow]
  ·
    show one1 zeroS (ix1 (0 : Fin 1)) = _
    rw [if_neg (by decide), if_neg (by decide), if_neg (by decide), zero1_apply]
  · show one1 (meanSq15 _) (ix1 (0 : Fin 1)) = _
    rw [if_neg (by decide), if_pos (by decide), one1_apply, meanSq15_apply]
    unfold parLoss
    simp only [parRow]
  ·
    show one1 zeroS (ix1 (0 : Fin 1)) = _
    rw [if_neg (by decide), if_neg (by decide), if_neg (by decide), zero1_apply]
  · show one1 (groundMean _) (ix1 (0 : Fin 1)) = _
    rw [if_neg (by decide), if_neg (by decide), if_pos (by decide), one1_apply, groundMean_apply]
    rfl
  ·
    show one1 zeroS (ix1 (0 : Fin 1)) = _
    rw [if_neg (by decide), if_neg (by decide), if_neg (by decide), zero1_apply]
  ·
    show one1 zeroS (ix1 (0 : Fin 1)) = _
    rw [if_neg (by decide), if_neg (by decide), if_neg (by decide), zero1_apply]

end Cert.ReferenceIdeal.RefStages

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefValue.lean ====
/-
  The reference's run with its result named.

  The fold of the reference's operations over any starting contents leaves, at the result buffer, the reference's
  stages composed (refOut) of the contents of the four argument buffers it reads, and leaves the argument buffers as
  they were; so every execution of the reference ends with its result at the skeleton loss of its arguments.
-/
import proofs.«123490_j45664092291588_2_alg».proof.Proof.RefRun
import proofs.«123490_j45664092291588_2_alg».proof.Proof.RefDefs
import proofs.«123490_j45664092291588_2_alg».proof.Proof.RefRead
import proofs.«123490_j45664092291588_2_alg».proof.Proof.LibStretches

noncomputable section

open scoped BigOperators

namespace Cert.ReferenceIdeal.RefValue

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

set_option maxRecDepth 16384 in
set_option maxHeartbeats 8000000 in
/-- The result buffer after the whole line holds the stages composed, of the argument buffers' contents. -/
theorem out_eq (V : Valuation τ sig (Elt Ideal)) :
    after (opsA ++ opsB) V (main_v81 : DevRef τ sig)
      = refOut (V (main_arg1 : DevRef τ sig)) (V (main_arg0 : DevRef τ sig)) (V (main_arg3 : DevRef τ sig))
          (V (main_arg4 : DevRef τ sig)) := by
  simp only [List.cons_append, List.nil_append]
  after_results_simp
  rfl

set_option maxRecDepth 16384 in
set_option maxHeartbeats 4000000 in
/-- No operation writes argument 0: it ends as it started. -/
theorem arg0_eq (V : Valuation τ sig (Elt Ideal)) :
    after (opsA ++ opsB) V (main_arg0 : DevRef τ sig) = V (main_arg0 : DevRef τ sig) :=
  after_of_forall_not_mem (b := Proc.devRef .tc main_arg0) _ _ (List.forall_iff_forall_mem.mp (by
    simp only [List.cons_append, List.nil_append, List.Forall, nullary_writes, unary_writes, binary_writes, ternary_writes,
      reshape_writes, nary_writes, Finset.mem_singleton]
    repeat' apply And.intro
    all_goals exact devRef_ne_of_ne (by decide)))

set_option maxRecDepth 16384 in
set_option maxHeartbeats 4000000 in
/-- No operation writes argument 1: it ends as it started. -/
theorem arg1_eq (V : Valuation τ sig (Elt Ideal)) :
    after (opsA ++ opsB) V (main_arg1 : DevRef τ sig) = V (main_arg1 : DevRef τ sig) :=
  after_of_forall_not_mem (b := Proc.devRef .tc main_arg1) _ _ (List.forall_iff_forall_mem.mp (by
    simp only [List.cons_append, List.nil_append, List.Forall, nullary_writes, unary_writes, binary_writes, ternary_writes,
      reshape_writes, nary_writes, Finset.mem_singleton]
    repeat' apply And.intro
    all_goals exact devRef_ne_of_ne (by decide)))

set_option maxRecDepth 16384 in
set_option maxHeartbeats 4000000 in
/-- No operation writes argument 2: it ends as it started. -/
theorem arg2_eq (V : Valuation τ sig (Elt Ideal)) :
    after (opsA ++ opsB) V (main_arg2 : DevRef τ sig) = V (main_arg2 : DevRef τ sig) :=
  after_of_forall_not_mem (b := Proc.devRef .tc main_arg2) _ _ (List.forall_iff_forall_mem.mp (by
    simp only [List.cons_append, List.nil_append, List.Forall, nullary_writes, unary_writes, binary_writes, ternary_writes,
      reshape_writes, nary_writes, Finset.mem_singleton]
    repeat' apply And.intro
    all_goals exact devRef_ne_of_ne (by decide)))

set_option maxRecDepth 16384 in
set_option maxHeartbeats 4000000 in
/-- No operation writes argument 3: it ends as it started. -/
theorem arg3_eq (V : Valuation τ sig (Elt Ideal)) :
    after (opsA ++ opsB) V (main_arg3 : DevRef τ sig) = V (main_arg3 : DevRef τ sig) :=
  after_of_forall_not_mem (b := Proc.devRef .tc main_arg3) _ _ (List.forall_iff_forall_mem.mp (by
    simp only [List.cons_append, List.nil_append, List.Forall, nullary_writes, unary_writes, binary_writes, ternary_writes,
      reshape_writes, nary_writes, Finset.mem_singleton]
    repeat' apply And.intro
    all_goals exact devRef_ne_of_ne (by decide)))

set_option maxRecDepth 16384 in
set_option maxHeartbeats 4000000 in
/-- No operation writes argument 4: it ends as it started. -/
theorem arg4_eq (V : Valuation τ sig (Elt Ideal)) :
    after (opsA ++ opsB) V (main_arg4 : DevRef τ sig) = V (main_arg4 : DevRef τ sig) :=
  after_of_forall_not_mem (b := Proc.devRef .tc main_arg4) _ _ (List.forall_iff_forall_mem.mp (by
    simp only [List.cons_append, List.nil_append, List.Forall, nullary_writes, unary_writes, binary_writes, ternary_writes,
      reshape_writes, nary_writes, Finset.mem_singleton]
    repeat' apply And.intro
    all_goals exact devRef_ne_of_ne (by decide)))

/-- Both stretches touch TensorCore buffers only. -/
theorem ops_sub : (opsA ++ opsB : List (HloOp τ sig (Elt Ideal))).Forall fun op => op.bufs ⊆ tcRefs τ sig :=
  Stretches.forall_append _ _ opsA_sub opsB_sub

/-- Every weakly fair execution of the reference terminates with its result at the skeleton loss of the launch
    contents of its arguments — the stages composed (out_eq), which are that loss (refOut_eq) — and its arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v81)
        = Cert.BoneLoss.lossVec (m ((c.tc : Thread nD τ).loc main_arg1))
            (Cert.BoneLoss.firstTwo (m ((c.tc : Thread nD τ).loc main_arg0)))
            (Cert.BoneLoss.pair (m ((c.tc : Thread nD τ).loc main_arg3)))
            (Cert.BoneLoss.pair (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v81).trans ((out_eq _).trans (refOut_eq _ _ _ _)),
       (h c main_arg0).trans (arg0_eq _), (h c main_arg1).trans (arg1_eq _), (h c main_arg2).trans (arg2_eq _),
       (h c main_arg3).trans (arg3_eq _), (h c main_arg4).trans (arg4_eq _)⟩)
    (run_seq scopedRefs_eq scopedSems_eq defs main (fun _ => opsA ++ opsB) main_eq (fun _ => ops_sub) m ρ)

end Cert.ReferenceIdeal.RefValue

end
-- ==== Proof.lean ====
/-
  The kernel and its reference compute the same skeleton loss.

  Both programs take the predicted joints y_pred3d [16, 3] (of which the first two columns are used), the data joints
  y_data [16, 2] and the two leg vectors rleg, lleg [2], and return the seven numbers
  (tangent loss, 0, parallel loss, 0, ground loss, 0, 0) of Proof/Spec.lean.  The kernel forms each bone as a row of a
  ±1 selector matrix times the joints and replaces the two leg bones through a keep mask and a one-hot matrix; the
  reference gathers the joints' rows, subtracts, and overwrites the two rows.  On the extended reals 0·x = 0, 1·x = x,
  (-1)·x = -x and addition commutes, so a selector row times the joints IS the difference of the two joints it marks,
  for every input: the equality needs no finiteness, and the precondition is not opened.  The remaining steps —
  floored lengths, unit tangents, normals, inner products, means of squares — are the same expressions on both sides.

  The kernel program's run is the generated frame run read at its output array and followed through the reshape after
  the region (Proof/KernelRun.lean, over the body's arithmetic read entry by entry in Proof/KV*.lean); the reference's
  run is its line of host operations folded and read stage by stage (Proof/RefRun.lean, RefDefs.lean, RefRead.lean,
  RefValue.lean).  The ideal pass rewrote nothing, so the word-level kernel is preserved trivially.
-/
import proofs.«123490_j45664092291588_2_alg».proof.Defs
import proofs.«123490_j45664092291588_2_alg».proof.Proof.Gen.Kernel
import proofs.«123490_j45664092291588_2_alg».proof.Proof.Gen.Kernel.Skeleton
import proofs.«123490_j45664092291588_2_alg».proof.Proof.Gen.Kernel.Launch
import proofs.«123490_j45664092291588_2_alg».proof.Proof.Gen.Kernel.Points
import proofs.«123490_j45664092291588_2_alg».proof.Proof.Gen.Kernel.Frame
import proofs.«123490_j45664092291588_2_alg».proof.Proof.Gen.KernelIdeal
import proofs.«123490_j45664092291588_2_alg».proof.Proof.Gen.KernelIdeal.Skeleton
import proofs.«123490_j45664092291588_2_alg».proof.Proof.Gen.KernelIdeal.Launch
import proofs.«123490_j45664092291588_2_alg».proof.Proof.Gen.KernelIdeal.Points
import proofs.«123490_j45664092291588_2_alg».proof.Proof.Gen.KernelIdeal.Frame
import proofs.«123490_j45664092291588_2_alg».proof.Proof.Gen.ReferenceIdeal
import proofs.«123490_j45664092291588_2_alg».proof.Proof.Gen.Pre_finite_inputs
import proofs.«123490_j45664092291588_2_alg».proof.Proof.KernelRun
import proofs.«123490_j45664092291588_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run m ρ)

/-- Both programs end at the skeleton loss of their arguments, and the arguments agree. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
